-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .f32) (main_arg1 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S8192x1024 : Shape := ⟨2, ![8192, 1024]⟩
abbrev S1024x1024 : Shape := ⟨2, ![1024, 1024]⟩
abbrev S512x1024 : Shape := ⟨2, ![512, 1024]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S1024x512 : Shape := ⟨2, ![1024, 512]⟩

abbrev nBuf : Space → Nat
  | .hbm => 3
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .f32 = 32 ∨ (Rect.block (s := S8192x1024) S1024x1024.size (cc0_transform_2 i) (hinb0_2 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S1024x8192, .f32⟩
  | .hbm, ⟨13, _⟩ => ⟨S8192x8192, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S8192x1024 : S_.BroadcastsInDim S8192x1024 (![] : Fin 0 → Fin S8192x1024.rank)
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.K.Base.lean ====
/-
  The attention kernel's grid is 8 × 16: point t has row-block i = t / 16 and reduction step k = t % 16.
  This module fixes what every later module is stated over: the two branch conditions of the body
  (k = 0: reset the accumulator and normalize the query rows; k = 15: apply the sigmoid and store the
  output block) decided over the 128 points; at which points the output window is idle; the staging and
  scratch memrefs the body is called with; and each input window's block of the array x at a point.
-/
import proofs.«127074_j670014898407_2_alg».proof.Proof.Gen.Kernel.Launch
import proofs.«127074_j670014898407_2_alg».proof.Proof.Gen.Kernel.Skeleton
import proofs.«127074_j670014898407_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- No host operation precedes the region: it finds the arrays at their launch contents. -/
abbrev V (c : Dev nD) (b : Ref sig .tc) : Buf (Elt F) ((c : Thread nD τ).loc b) := m ((c : Thread nD τ).loc b)

/-- Window `w`'s block of its array at point `t`: rows 1024·i … of x for the query window, rows 512·k … for the key window. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds rows 1024·i … of x at every point, fetched there (k = 0) or kept from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's staging buffer holds rows 512·k … of x at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- The reduction step is the first one (k = 0). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The reduction step is the last one (k = 15). -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last reduction step nothing is stored into the output block, -/
theorem idleAt0_2 : ∀ t : Fin cfg0.N, ¬cond0_1 (grid0.coords t) → cfg0.idle 2 (grid0.coords t) = true := by decide +kernel
/-- and it is not written back there; -/
theorem noFlush0_2 : ∀ t : Fin cfg0.N, ¬cond0_1 (grid0.coords t) → (cfg0.win 2).flush t = false := by decide +kernel
/-- at the last step it is stored. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The accumulator (f32) and the normalized query rows (bf16), carried from one reduction step to the next. -/
abbrev scM0_0 : Memref sig .tc .vmem S1024x1024 .f32 := Memref.whole cc0_scratch0
abbrev scM0_1 : Memref sig .tc .vmem S1024x1024 .bf16 := Memref.whole cc0_scratch1
abbrev VO0_2 : View sig .tc .vmem S1024x1024 .f32 := (Memref.whole cc0_stg2_0 : Memref sig .tc .vmem S1024x1024 .f32).view
abbrev VS0_0 : View sig .tc .vmem S1024x1024 .f32 := scM0_0.view
abbrev VS0_1 : View sig .tc .vmem S1024x1024 .bf16 := scM0_1.view

/-- What the region hands the body besides the windows: the two scratch buffers, at some contents each. -/
def PhiA0 (c : Dev nD) : sProp 𝕄 :=
  Pipeline.scopedRest (Ix := Unit) (Name := ℕ) (U := UR sig nD τ) (Lvl := ℕ) (Val := Elt F) spec0 c

theorem PhiA0_eq (c : Dev nD) :
    (PhiA0 c : sProp 𝕄)
      = iprop((∃ d, owns (c : Thread nD τ) scM0_0 fullShare d) ∗ (∃ d, owns (c : Thread nD τ) scM0_1 fullShare d)) := by
  unfold PhiA0; rw [scopedRest0_eq]; simp only [scM0_0, scM0_1, owns_whole]; try rfl

end Cert.Kernel.Hand

end
-- ==== Proof.K.RunA.lean ====
/-
  The body at the first reduction step (k = 0, and 0 ≠ 15): the accumulator is overwritten with zeros, the
  query block's rows are normalized and stored (bf16), then the key block's contribution is added to the
  accumulator. Both scratch buffers may hold anything before; the output block is not touched. What the two
  scratch buffers end with is recorded as the list of stores into each, last first.
-/
import proofs.«127074_j670014898407_2_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : cond0_0 i) (hc1 : ¬cond0_1 i)
    (x0 : Vec F S1024x1024 .f32) (x1 : Vec F S512x1024 .f32) :
    Σ' (LS0 : List (View.Piece (Elt F) S1024x1024 .f32)), { LS1 : List (View.Piece (Elt F) S1024x1024 .bf16) //
      ∀ (xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__attn_kernel i arg2 harg2 arg3 harg3 arg4 harg4 arg5 harg5 arg6 harg6) K } := by
  refine ⟨?_, ?_, fun xi2 E K => ?run⟩
  case run =>
    simp only [cc0__attn_kernel_eq_skeleton]; unfold cc0__attn_kernel_skel
    unfold owns
    iintro ⟨⟨%f0, %hf0, H0⟩, ⟨%f1, %hf1, H1⟩, H2, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [HS0]; · iexists _; iexact HS0
    iexists _; iexact HS1

end Cert.Kernel.Hand

end
-- ==== Proof.K.RunB.lean ====
/-
  The body at a middle reduction step (k ≠ 0, k ≠ 15): the key block's contribution is added to the
  accumulator; the normalized query rows are only read; neither the query block nor the output block is
  touched. What the accumulator ends with is recorded as the list of stores into it.
-/
import proofs.«127074_j670014898407_2_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : ¬cond0_1 i)
    (x1 : Vec F S512x1024 .f32) (xs0 : Vec F S1024x1024 .f32) (xs1 : Vec F S1024x1024 .bf16) :
    { LS0 : List (View.Piece (Elt F) S1024x1024 .f32) //
      ∀ (x0 xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ owns (c : Thread nD τ) arg6 fullShare xs1) -∗ K ⟨⟩))
          ⊢ wp frame (wpE (defs₀ (F := F)) Variants.none c none) E (cc0__attn_kernel i arg2 harg2 arg3 harg3 arg4 harg4 arg5 harg5 arg6 harg6) K } := by
  refine ⟨?_, fun x0 xi2 E K => ?run⟩
  case run =>
    simp only [cc0__attn_kernel_eq_skeleton]; unfold cc0__attn_kernel_skel
    unfold owns
    iintro ⟨H0, ⟨%f1, %hf1, H1⟩, H2, ⟨%fs0, %hfs0, HS0⟩, ⟨%fs1, %hfs1, HS1⟩, Hk⟩
    obtain rfl := harg3.eq_unread hf1; obtain rfl := harg5.eq_unread hfs0; obtain rfl := harg6.eq_unread hfs1
    sl_exec (disch := first | exact hc0 | exact hc1)
    sl_step
    iapply Hk
    isplitl [H0]; · iexact H0
    isplitl [H1]
    · iexists _; isplitr; · ipureintro; exact harg3.read_unread _
      iexact H1
    isplitl [H2]; · iexact H2
    isplitl [HS0]; · iexists _; iexact HS0
    iexists _; isplitr; · ipureintro; exact harg6.read_unread _
    iexact HS1

end Cert.Kernel.Hand

end
-- ==== Proof.K.RunC.lean ====
/-
  The body at the last reduction step (k = 15, and 15 ≠ 0): the key block's contribution is added to the
  accumulator, then the sigmoid of the accumulator is stored into the output block, which may hold anything
  before. What the accumulator and the output block end with is recorded as the list of stores into each.
-/
import proofs.«127074_j670014898407_2_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : cond0_1 i)
    (x1 : Vec F S512x1024 .f32) (xs0 : Vec F S1024x1024 .f32) (xs1 : Vec F S1024x1024 .bf16) :
    Σ' (L2 : List (View.Piece (Elt F) S1024x1024 .f32)), { LS0 : List (View.Piece (Elt F) S1024x1024 .f32) //
      ∀ (x0 : Vec F S1024x1024 .f32) (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ owns (c : Thread nD τ) arg6 fullShare xs1) -∗ K ⟨⟩))
          ⊢ wp frame (wpE (defs₀ (F := F)) Variants.none c none) E (cc0__attn_kernel i arg2 harg2 arg3 harg3 arg4 harg4 arg5 harg5 arg6 harg6) K } := by
  refine ⟨?_, ?_, fun x0 E K => ?run⟩
  case run =>
    simp only [cc0__attn_kernel_eq_skeleton]; unfold cc0__attn_kernel_skel
    unfold owns
    iintro ⟨H0, ⟨%f1, %hf1, H1⟩, ⟨%d2, %f2, -, H2⟩, ⟨%fs0, %hfs0, HS0⟩, ⟨%fs1, %hfs1, HS1⟩, Hk⟩
    obtain rfl := harg3.eq_unread hf1; obtain rfl := harg5.eq_unread hfs0; obtain rfl := harg6.eq_unread hfs1
    sl_exec (disch := first | exact hc0 | exact hc1)
    sl_step
    iapply Hk
    isplitl [H0]; · iexact H0
    isplitl [H1]
    · iexists _; isplitr; · ipureintro; exact harg3.read_unread _
      iexact H1
    isplitl [H2]; · iexists _; iexact H2
    isplitl [HS0]; · iexists _; iexact HS0
    iexists _; isplitr; · ipureintro; exact harg6.read_unread _
    iexact HS1

end Cert.Kernel.Hand

end
-- ==== Proof.K.Body.lean ====
/-
  What the accumulator, the normalized query rows and the output block hold after each grid point, and the
  body's obligation to the pipeline at a generic point.

  Point t = 16·i + k. At k = 0 the accumulator and the normalized query rows are rebuilt from the query
  block alone (whatever the scratch held before), so their contents after the point are a function of the
  two input blocks; at k > 0 the accumulator after the point is a function of the key block and of what
  the point before left in both scratch buffers, and the normalized query rows are as the point before left
  them; at k = 15 the output block is a function of the same. The contents are named by recursion on the
  point (`outsAt0`); the invariant between points holds the two scratch buffers at them.
-/
import proofs.«127074_j670014898407_2_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

def sout0_A_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : cond0_0 i) (hc1 : ¬cond0_1 i)
    (x0 : Vec F S1024x1024 .f32) (x1 : Vec F S512x1024 .f32) : Vec F S1024x1024 .f32 :=
  VS0_0.read (Elt F) (VS0_0.writes (Elt F) VS0_0.junk (kernelRun0_A c i arg2 harg2 arg3 harg3 arg4 harg4 arg5 harg5 arg6 harg6 hc0 hc1 x0 x1).1)
theorem scover0_A_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : cond0_0 i) (hc1 : ¬cond0_1 i)
    (x0 : Vec F S1024x1024 .f32) (x1 : Vec F S512x1024 .f32) (y : S1024x1024.Idx) :
    ∃ pc ∈ (kernelRun0_A c i arg2 harg2 arg3 harg3 arg4 harg4 arg5 harg5 arg6 harg6 hc0 hc1 x0 x1).1, y ∈ pc.1.set :=
  View.cover_of_tiledL (kernelRun0_A c i arg2 harg2 arg3 harg3 arg4 harg4 arg5 harg5 arg6 harg6 hc0 hc1 x0 x1).1 S1024x1024.size (by sl_kernel_rfl) y
def sout0_A_1 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : cond0_0 i) (hc1 : ¬cond0_1 i)
    (x0 : Vec F S1024x1024 .f32) (x1 : Vec F S512x1024 .f32) : Vec F S1024x1024 .bf16 :=
  VS0_1.read (Elt F) (VS0_1.writes (Elt F) VS0_1.junk (kernelRun0_A c i arg2 harg2 arg3 harg3 arg4 harg4 arg5 harg5 arg6 harg6 hc0 hc1 x0 x1).2.1)
theorem scover0_A_1 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : cond0_0 i) (hc1 : ¬cond0_1 i)
    (x0 : Vec F S1024x1024 .f32) (x1 : Vec F S512x1024 .f32) (y : S1024x1024.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1024x1024.size (by sl_kernel_rfl) y

def sout0_B_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : ¬cond0_1 i)
    (x1 : Vec F S512x1024 .f32) (xs0 : Vec F S1024x1024 .f32) (xs1 : Vec F S1024x1024 .bf16) : Vec F S1024x1024 .f32 :=
  VS0_0.read (Elt F) (VS0_0.writes (Elt F) VS0_0.junk (kernelRun0_B c i arg2 harg2 arg3 harg3 arg4 harg4 arg5 harg5 arg6 harg6 hc0 hc1 x1 xs0 xs1).1)
theorem scover0_B_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : ¬cond0_1 i)
    (x1 : Vec F S512x1024 .f32) (xs0 : Vec F S1024x1024 .f32) (xs1 : Vec F S1024x1024 .bf16) (y : S1024x1024.Idx) :
    ∃ pc ∈ (kernelRun0_B c i arg2 harg2 arg3 harg3 arg4 harg4 arg5 harg5 arg6 harg6 hc0 hc1 x1 xs0 xs1).1, y ∈ pc.1.set :=
  View.cover_of_tiledL (kernelRun0_B c i arg2 harg2 arg3 harg3 arg4 harg4 arg5 harg5 arg6 harg6 hc0 hc1 x1 xs0 xs1).1 S1024x1024.size (by sl_kernel_rfl) y

def out0_C_2 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : cond0_1 i)
    (x1 : Vec F S512x1024 .f32) (xs0 : Vec F S1024x1024 .f32) (xs1 : Vec F S1024x1024 .bf16) : Vec F S1024x1024 .f32 :=
  VO0_2.read (Elt F) (VO0_2.writes (Elt F) VO0_2.junk (kernelRun0_C c i arg2 harg2 arg3 harg3 arg4 harg4 arg5 harg5 arg6 harg6 hc0 hc1 x1 xs0 xs1).1)
theorem cover0_C_2 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : cond0_1 i)
    (x1 : Vec F S512x1024 .f32) (xs0 : Vec F S1024x1024 .f32) (xs1 : Vec F S1024x1024 .bf16) (y : S1024x1024.Idx) :
    ∃ pc ∈ (kernelRun0_C c i arg2 harg2 arg3 harg3 arg4 harg4 arg5 harg5 arg6 harg6 hc0 hc1 x1 xs0 xs1).1, y ∈ pc.1.set :=
  View.cover_of_tiledL (kernelRun0_C c i arg2 harg2 arg3 harg3 arg4 harg4 arg5 harg5 arg6 harg6 hc0 hc1 x1 xs0 xs1).1 S1024x1024.size (by sl_kernel_rfl) y
def sout0_C_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : cond0_1 i)
    (x1 : Vec F S512x1024 .f32) (xs0 : Vec F S1024x1024 .f32) (xs1 : Vec F S1024x1024 .bf16) : Vec F S1024x1024 .f32 :=
  VS0_0.read (Elt F) (VS0_0.writes (Elt F) VS0_0.junk (kernelRun0_C c i arg2 harg2 arg3 harg3 arg4 harg4 arg5 harg5 arg6 harg6 hc0 hc1 x1 xs0 xs1).2.1)
theorem scover0_C_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : cond0_1 i)
    (x1 : Vec F S512x1024 .f32) (xs0 : Vec F S1024x1024 .f32) (xs1 : Vec F S1024x1024 .bf16) (y : S1024x1024.Idx) :
    ∃ pc ∈ (kernelRun0_C c i arg2 harg2 arg3 harg3 arg4 harg4 arg5 harg5 arg6 harg6 hc0 hc1 x1 xs0 xs1).2.1, y ∈ pc.1.set :=
  View.cover_of_tiledL (kernelRun0_C c i arg2 harg2 arg3 harg3 arg4 harg4 arg5 harg5 arg6 harg6 hc0 hc1 x1 xs0 xs1).2.1 S1024x1024.size (by sl_kernel_rfl) y

/-! ## The cases at a grid point -/

theorem notLast_of_first {t : Fin cfg0.N} (h0 : t.val % 16 = 0) : ¬cond0_1 (grid0.coords t) :=
  fun h => by have := (hcond0_1 t).mp h; omega

/-- After a first step (k = 0): the accumulator and the normalized query rows, from the two input blocks. -/
def accA (c : Dev nD) (t : Fin cfg0.N) (h0 : t.val % 16 = 0) : Vec F S1024x1024 .f32 :=
  sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (notLast_of_first h0) (iblk m c 0 t) (iblk m c 1 t)
def qnA (c : Dev nD) (t : Fin cfg0.N) (h0 : t.val % 16 = 0) : Vec F S1024x1024 .bf16 :=
  sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (notLast_of_first h0) (iblk m c 0 t) (iblk m c 1 t)
/-- After a middle step: the accumulator, from the key block and what the point before left. -/
def accB (c : Dev nD) (t : Fin cfg0.N) (h0 : ¬t.val % 16 = 0) (h1 : ¬t.val % 16 = 15)
    (a : Vec F S1024x1024 .f32) (q : Vec F S1024x1024 .bf16) : Vec F S1024x1024 .f32 :=
  sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 1 t) a q
/-- After a last step (k = 15): the accumulator and the output block. -/
def accC (c : Dev nD) (t : Fin cfg0.N) (h0 : ¬t.val % 16 = 0) (h1 : t.val % 16 = 15)
    (a : Vec F S1024x1024 .f32) (q : Vec F S1024x1024 .bf16) : Vec F S1024x1024 .f32 :=
  sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 1 t) a q
def outC (c : Dev nD) (t : Fin cfg0.N) (h0 : ¬t.val % 16 = 0) (h1 : t.val % 16 = 15)
    (a : Vec F S1024x1024 .f32) (q : Vec F S1024x1024 .bf16) : Vec F S1024x1024 .f32 :=
  out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 1 t) a q

/-- A placeholder for the output block at the points that store nothing into it (nothing consults it there). -/
def noOut : Vec F S1024x1024 .f32 := VO0_2.read (Elt F) VO0_2.junk

/-! ## The accumulation, point by point -/

/-- After the body at position `n`: the output block, the accumulator, the normalized query rows. -/
def outsAt0 (c : Dev nD) : (n : ℕ) → n < cfg0.N → Vec F S1024x1024 .f32 × Vec F S1024x1024 .f32 × Vec F S1024x1024 .bf16
  | 0, hn => (noOut, accA m c ⟨0, hn⟩ (Nat.zero_mod _), qnA m c ⟨0, hn⟩ (Nat.zero_mod _))
  | n + 1, hn =>
    if h0 : (n + 1) % 16 = 0 then
      (noOut, accA m c ⟨n + 1, hn⟩ h0, qnA m c ⟨n + 1, hn⟩ h0)
    else
      if h1 : (n + 1) % 16 = 15 then
        (outC m c ⟨n + 1, hn⟩ h0 h1 (outsAt0 c n (Nat.lt_of_succ_lt hn)).2.1 (outsAt0 c n (Nat.lt_of_succ_lt hn)).2.2,
         accC m c ⟨n + 1, hn⟩ h0 h1 (outsAt0 c n (Nat.lt_of_succ_lt hn)).2.1 (outsAt0 c n (Nat.lt_of_succ_lt hn)).2.2,
         (outsAt0 c n (Nat.lt_of_succ_lt hn)).2.2)
      else
        (noOut,
         accB m c ⟨n + 1, hn⟩ h0 h1 (outsAt0 c n (Nat.lt_of_succ_lt hn)).2.1 (outsAt0 c n (Nat.lt_of_succ_lt hn)).2.2,
         (outsAt0 c n (Nat.lt_of_succ_lt hn)).2.2)

theorem outsAt0_A (c : Dev nD) (t : Fin cfg0.N) (h0 : t.val % 16 = 0) :
    outsAt0 m c t.val t.isLt = (noOut, accA m c t h0, qnA m c t h0) := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 m c t.val t.isLt = (noOut,
      accB m c t h0 h1 (outsAt0 m c (t.val - 1) (Nat.lt_of_le_of_lt (Nat.sub_le _ _) t.isLt)).2.1 (outsAt0 m c (t.val - 1) (Nat.lt_of_le_of_lt (Nat.sub_le _ _) t.isLt)).2.2,
      (outsAt0 m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (
      outC m c t h0 h1 (outsAt0 m c (t.val - 1) (Nat.lt_of_le_of_lt (Nat.sub_le _ _) t.isLt)).2.1 (outsAt0 m c (t.val - 1) (Nat.lt_of_le_of_lt (Nat.sub_le _ _) t.isLt)).2.2,
      accC m c t h0 h1 (outsAt0 m c (t.val - 1) (Nat.lt_of_le_of_lt (Nat.sub_le _ _) t.isLt)).2.1 (outsAt0 m c (t.val - 1) (Nat.lt_of_le_of_lt (Nat.sub_le _ _) t.isLt)).2.2,
      (outsAt0 m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-! ## The invariant between points -/

/-- Before the first point both scratch buffers hold anything; after point `n` they hold what it left. -/
def PhiS (c : Dev nD) : (n : ℕ) → n ≤ cfg0.N → sProp 𝕄
  | 0, _ => PhiA0 c
  | n + 1, hn => iprop(owns (c : Thread nD τ) scM0_0 fullShare ((outsAt0 m c n hn).2.1) ∗ owns (c : Thread nD τ) scM0_1 fullShare ((outsAt0 m c n hn).2.2))

theorem PhiS_zero (c : Dev nD) (n : ℕ) (h : n ≤ cfg0.N) (hz : n = 0) : PhiS m c n h = PhiA0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2)) := by
  cases n with
  | zero => exact absurd rfl hz
  | succ n => rfl

/-! ## The proof data -/

/-- The two input windows read one array, x: each holds half of it (the array is only read); the output window holds its array outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 16 = 0
  · -- the first reduction step
    have hc1 : ¬cond0_1 (grid0.coords t) := notLast_of_first h0
    rw [Dat.leavesExact_idle (dats m 0 c) 2 t (idleAt0_2 t hc1) (noFlush0_2 t hc1)]
    rw [outsAt0_A m c t h0]
    unfold accA qnA sout0_A_0 sout0_A_1; (try dsimp only)
    by_cases hz : t.val = 0
    · rw [PhiS_castSucc m c t, PhiS_zero m c _ _ hz, PhiA0_eq]
      iintro ⟨⟨HS0, HS1⟩, Ho, ⟨%d0, H0⟩, ⟨%d1, H1⟩, ⟨%d2, H2⟩⟩
      iapply ((kernelRun0_A c (grid0.coords t) _ _ _ _ _ _ _ _ _ _ ((hcond0_0 t).mpr h0) hc1 (iblk m c 0 t) (iblk m c 1 t)).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨⟨HS0, HS1⟩, Ho, ⟨%d0, H0⟩, ⟨%d1, H1⟩, ⟨%d2, H2⟩⟩
      iapply ((kernelRun0_A c (grid0.coords t) _ _ _ _ _ _ _ _ _ _ ((hcond0_0 t).mpr h0) hc1 (iblk m c 0 t) (iblk m c 1 t)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _)
      isplitl [Ho]; · iexact Ho
      isplitl [H0]; · iexact H0
      isplitl [H1]; · iexact H1
      iexists _; iexact H2
  · have hz : t.val ≠ 0 := fun h => h0 (by rw [h])
    have hc0 : ¬cond0_0 (grid0.coords t) := fun h => h0 ((hcond0_0 t).mp h)
    by_cases h1 : t.val % 16 = 15
    · -- the last reduction step
      have hc1 : cond0_1 (grid0.coords t) := (hcond0_1 t).mpr h1
      rw [show (dats m 0 c).leavesExact 2 t = owns (c : Thread nD τ) (ms0_2 t) fullShare ((dats m 0 c).after 2 t) from by
        unfold Dat.leavesExact; rw [liveAt0_2 t hc1], after0_2]
      rw [outsAt0_C m c t h0 h1]
      unfold outC accC out0_C_2 sout0_C_0; (try dsimp only)
      rw [PhiS_castSucc m c t, PhiS_pos m c _ _ hz]
      iintro ⟨⟨HS0, HS1⟩, Ho, ⟨%d0, H0⟩, ⟨%d1, H1⟩, ⟨%d2, H2⟩⟩
      iapply ((kernelRun0_C c (grid0.coords t) _ _ _ _ _ _ _ _ _ _ hc0 hc1 (iblk m c 1 t) _ _).2.2 _ Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, HS1⟩
      isplitl [HS0 HS1]
      · isplitl [HS0]
        · unfold owns; iexists _; isplitr
          swap; · iexact HS0
          ipureintro; exact View.read_writes_of_cover _ _ _ _ _ (scover0_C_0 c _ _ _ _ _ _ _ _ _ _ _ _ _ _ _ _)
        · iexact HS1
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _)
    · -- a middle reduction step
      have hc1 : ¬cond0_1 (grid0.coords t) := fun h => h1 ((hcond0_1 t).mp h)
      rw [Dat.leavesExact_idle (dats m 0 c) 2 t (idleAt0_2 t hc1) (noFlush0_2 t hc1)]
      rw [outsAt0_B m c t h0 h1]
      unfold accB sout0_B_0; (try dsimp only)
      rw [PhiS_castSucc m c t, PhiS_pos m c _ _ hz]
      iintro ⟨⟨HS0, HS1⟩, Ho, ⟨%d0, H0⟩, ⟨%d1, H1⟩, ⟨%d2, H2⟩⟩
      iapply ((kernelRun0_B c (grid0.coords t) _ _ _ _ _ _ _ _ _ _ hc0 hc1 (iblk m c 1 t) _ _).2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, HS1⟩
      isplitl [HS0 HS1]
      · isplitl [HS0]
        · unfold owns; iexists _; isplitr
          swap; · iexact HS0
          ipureintro; exact View.read_writes_of_cover _ _ _ _ _ (scover0_B_0 c _ _ _ _ _ _ _ _ _ _ _ _ _ _ _ _)
        · iexact HS1
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : PhiA0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ PhiA0 c := by
  have hne : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ hne, PhiA0_eq]
  iintro ⟨HS0, HS1⟩
  isplitl [HS0]
  · iexists _; iexact HS0
  · iexists _; iexact HS1

end Cert.Kernel.Hand

end
-- ==== Proof.K.Run.lean ====
/-
  The launch. The two input windows read one array (x): the launch holds it whole, and hands each window one
  half of it (the array is only read, so halves suffice); the output array is held outright. With the body's
  obligation at every point, the pipeline's rule gives the run: every weakly fair execution ends, no fault,
  each window's array at what the write-backs leave (for an input: its entry contents), and the argument W,
  which no window touches, unchanged.
-/
import proofs.«127074_j670014898407_2_alg».proof.Proof.K.Body
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays: x and the result. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)) := by
  unfold Pipeline.arrBufs
  exact bigSep_eq_bigSepL_of_eq [main_arg0, main_v0] (by decide) (by decide) _

/-- x held whole is x held by halves, one per input window; the result array goes to the output window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq]
  unfold Dat.arrays
  rw [bigSep_W0]
  have e0 : ((cfg0.win 0).arr.view.loc (c : Thread nD τ) ↦[(cfg0.win 0).arr.view.set]{(dats m 0 c).share 0} (dats m 0 c).arrAt 0 0 : sProp 𝕄)
      = (((c : Thread nD τ).loc main_arg0) ↦{fullShare.left} V m c main_arg0) := by
    rw [(arr_whole0 0).set_eq_univ]; rfl
  have e1 : ((cfg0.win 1).arr.view.loc (c : Thread nD τ) ↦[(cfg0.win 1).arr.view.set]{(dats m 0 c).share 1} (dats m 0 c).arrAt 1 0 : sProp 𝕄)
      = (((c : Thread nD τ).loc main_arg0) ↦{fullShare.right} V m c main_arg0) := by
    rw [(arr_whole0 1).set_eq_univ]; rfl
  have e2 : ((cfg0.win 2).arr.view.loc (c : Thread nD τ) ↦[(cfg0.win 2).arr.view.set]{(dats m 0 c).share 2} (dats m 0 c).arrAt 2 0 : sProp 𝕄)
      = (((c : Thread nD τ).loc main_v0) ↦{fullShare} V m c main_v0) := by
    rw [(arr_whole0 2).set_eq_univ]; rfl
  rw [e0, e1, e2]
  iintro ⟨HA, HO⟩
  ihave HA2 := (pointsTo_share (PosShare.mem_left_op_right fullShare)).1 $$ HA
  icases HA2 with ⟨HAl, HAr⟩
  isplitl [HAl]; · iexact HAl
  isplitl [HAr]; · iexact HAr
  iexact HO

/-- The buffers no window touches (the argument W) bypass the region. -/
theorem hX' (c : Dev nD) :
    (Pipeline.unscopedRest (Ix := Unit) (Name := ℕ) (U := UR sig nD τ) (Lvl := ℕ) spec0 c (V m c) : sProp 𝕄)
      ⊢ iprop(emp ∗ Pipeline.unscopedRest (Ix := Unit) (Name := ℕ) (U := UR sig nD τ) (Lvl := ℕ) spec0 c (V m c)) := by
  iintro H
  isplitr
  · iempintro
  · iexact H

/-- The region's scratch buffers, at anything, are the invariant before the first point, -/
theorem hin' (c : Dev nD) :
    iprop(emp ∗ (Pipeline.scopedRest (Ix := Unit) (Name := ℕ) (U := UR sig nD τ) (Lvl := ℕ) (Val := Elt F) spec0 c : sProp 𝕄)) ⊢ (dats m 0 c).Φ 0 :=
  (show iprop(emp ∗ (Pipeline.scopedRest (Ix := Unit) (Name := ℕ) (U := UR sig nD τ) (Lvl := ℕ) (Val := Elt F) spec0 c : sProp 𝕄)) ⊢ PhiA0 c from by
    unfold PhiA0; iintro ⟨-, H⟩; iexact H).trans (hin m c)

/-- and the invariant after the last point gives them back. -/
theorem hout' (c : Dev nD) :
    (dats m 0 c).Φ (Fin.last cfg0.N) ⊢ iprop(emp ∗ (Pipeline.scopedRest (Ix := Unit) (Name := ℕ) (U := UR sig nD τ) (Lvl := ℕ) (Val := Elt F) spec0 c : sProp 𝕄)) :=
  (hout m c).trans (show PhiA0 c ⊢ iprop(emp ∗ (Pipeline.scopedRest (Ix := Unit) (Name := ℕ) (U := UR sig nD τ) (Lvl := ℕ) (Val := Elt F) spec0 c : sProp 𝕄)) from by
    unfold PhiA0
    iintro H
    isplitr
    · iempintro
    · iexact H)

/-- What the run ends with: each window's array at what the write-backs leave, every other unscoped buffer as at launch. -/
def RunPost (r : PUnit × MemSt nD τ sig (Elt F)) : Prop :=
  ∀ c : Dev nD, (∀ w, r.2.mem ((spec0 w).arr.view.loc (c : Thread nD τ)) = (dats m 0 c).arrAt w cfg0.N)
    ∧ ∀ b ∈ Pipeline.restRefs sig spec0, r.2.mem ((c : Thread nD τ).loc b) = V m c b

set_option backward.isDefEq.respectTransparency.types false in
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m)
    (hmain := Pipeline.hmain_region cfgs 0 defs₀ Variants.none m main (fun _ => rfl))
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := hX' m) (hin := hin' m) (hout := hout' m)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- info: 'Cert.Kernel.Hand.run_main' depends on axioms: [propext, Classical.choice, Quot.sound] -/
#guard_msgs in #print axioms run_main

/-- The frame: the program runs to the end, faults nowhere, and both arguments end as they began — x by the
    input windows' arrays never being written, W by no window touching it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans (A_eq m c 0)),
     (h c).2 main_arg1 (Pipeline.mem_restRefs_of main_arg1 rfl (by decide))⟩) (run_main m ρ)

end Cert.Kernel.Hand

end
-- ==== Proof.KI.Base.lean ====
/-
  The attention kernel's grid is 8 × 16: point t has row-block i = t / 16 and reduction step k = t % 16.
  This module fixes what every later module is stated over: the two branch conditions of the body
  (k = 0: reset the accumulator and normalize the query rows; k = 15: apply the sigmoid and store the
  output block) decided over the 128 points; at which points the output window is idle; the staging and
  scratch memrefs the body is called with; and each input window's block of the array x at a point.
-/
import proofs.«127074_j670014898407_2_alg».proof.Proof.Gen.KernelIdeal.Launch
import proofs.«127074_j670014898407_2_alg».proof.Proof.Gen.KernelIdeal.Skeleton
import proofs.«127074_j670014898407_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- No host operation precedes the region: it finds the arrays at their launch contents. -/
abbrev V (c : Dev nD) (b : Ref sig .tc) : Buf (Elt F) ((c : Thread nD τ).loc b) := m ((c : Thread nD τ).loc b)

/-- Window `w`'s block of its array at point `t`: rows 1024·i … of x for the query window, rows 512·k … for the key window. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds rows 1024·i … of x at every point, fetched there (k = 0) or kept from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's staging buffer holds rows 512·k … of x at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- The reduction step is the first one (k = 0). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The reduction step is the last one (k = 15). -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last reduction step nothing is stored into the output block, -/
theorem idleAt0_2 : ∀ t : Fin cfg0.N, ¬cond0_1 (grid0.coords t) → cfg0.idle 2 (grid0.coords t) = true := by decide +kernel
/-- and it is not written back there; -/
theorem noFlush0_2 : ∀ t : Fin cfg0.N, ¬cond0_1 (grid0.coords t) → (cfg0.win 2).flush t = false := by decide +kernel
/-- at the last step it is stored. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The accumulator (f32) and the normalized query rows (bf16), carried from one reduction step to the next. -/
abbrev scM0_0 : Memref sig .tc .vmem S1024x1024 .f32 := Memref.whole cc0_scratch0
abbrev scM0_1 : Memref sig .tc .vmem S1024x1024 .bf16 := Memref.whole cc0_scratch1
abbrev VO0_2 : View sig .tc .vmem S1024x1024 .f32 := (Memref.whole cc0_stg2_0 : Memref sig .tc .vmem S1024x1024 .f32).view
abbrev VS0_0 : View sig .tc .vmem S1024x1024 .f32 := scM0_0.view
abbrev VS0_1 : View sig .tc .vmem S1024x1024 .bf16 := scM0_1.view

/-- What the region hands the body besides the windows: the two scratch buffers, at some contents each. -/
def PhiA0 (c : Dev nD) : sProp 𝕄 :=
  Pipeline.scopedRest (Ix := Unit) (Name := ℕ) (U := UR sig nD τ) (Lvl := ℕ) (Val := Elt F) spec0 c

theorem PhiA0_eq (c : Dev nD) :
    (PhiA0 c : sProp 𝕄)
      = iprop((∃ d, owns (c : Thread nD τ) scM0_0 fullShare d) ∗ (∃ d, owns (c : Thread nD τ) scM0_1 fullShare d)) := by
  unfold PhiA0; rw [scopedRest0_eq]; simp only [scM0_0, scM0_1, owns_whole]; try rfl

end Cert.KernelIdeal.Hand

end
-- ==== Proof.KI.RunA.lean ====
/-
  The body at the first reduction step (k = 0, and 0 ≠ 15): the accumulator is overwritten with zeros, the
  query block's rows are normalized and stored (bf16), then the key block's contribution is added to the
  accumulator. Both scratch buffers may hold anything before; the output block is not touched. What the two
  scratch buffers end with is recorded as the list of stores into each, last first.
-/
import proofs.«127074_j670014898407_2_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : cond0_0 i) (hc1 : ¬cond0_1 i)
    (x0 : Vec F S1024x1024 .f32) (x1 : Vec F S512x1024 .f32) :
    Σ' (LS0 : List (View.Piece (Elt F) S1024x1024 .f32)), { LS1 : List (View.Piece (Elt F) S1024x1024 .bf16) //
      ∀ (xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__attn_kernel i arg2 harg2 arg3 harg3 arg4 harg4 arg5 harg5 arg6 harg6) K } := by
  refine ⟨?_, ?_, fun xi2 E K => ?run⟩
  case run =>
    simp only [cc0__attn_kernel_eq_skeleton]; unfold cc0__attn_kernel_skel
    unfold owns
    iintro ⟨⟨%f0, %hf0, H0⟩, ⟨%f1, %hf1, H1⟩, H2, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [HS0]; · iexists _; iexact HS0
    iexists _; iexact HS1

end Cert.KernelIdeal.Hand

end
-- ==== Proof.KI.RunB.lean ====
/-
  The body at a middle reduction step (k ≠ 0, k ≠ 15): the key block's contribution is added to the
  accumulator; the normalized query rows are only read; neither the query block nor the output block is
  touched. What the accumulator ends with is recorded as the list of stores into it.
-/
import proofs.«127074_j670014898407_2_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : ¬cond0_1 i)
    (x1 : Vec F S512x1024 .f32) (xs0 : Vec F S1024x1024 .f32) (xs1 : Vec F S1024x1024 .bf16) :
    { LS0 : List (View.Piece (Elt F) S1024x1024 .f32) //
      ∀ (x0 xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ owns (c : Thread nD τ) arg6 fullShare xs1) -∗ K ⟨⟩))
          ⊢ wp frame (wpE (defs₀ (F := F)) Variants.none c none) E (cc0__attn_kernel i arg2 harg2 arg3 harg3 arg4 harg4 arg5 harg5 arg6 harg6) K } := by
  refine ⟨?_, fun x0 xi2 E K => ?run⟩
  case run =>
    simp only [cc0__attn_kernel_eq_skeleton]; unfold cc0__attn_kernel_skel
    unfold owns
    iintro ⟨H0, ⟨%f1, %hf1, H1⟩, H2, ⟨%fs0, %hfs0, HS0⟩, ⟨%fs1, %hfs1, HS1⟩, Hk⟩
    obtain rfl := harg3.eq_unread hf1; obtain rfl := harg5.eq_unread hfs0; obtain rfl := harg6.eq_unread hfs1
    sl_exec (disch := first | exact hc0 | exact hc1)
    sl_step
    iapply Hk
    isplitl [H0]; · iexact H0
    isplitl [H1]
    · iexists _; isplitr; · ipureintro; exact harg3.read_unread _
      iexact H1
    isplitl [H2]; · iexact H2
    isplitl [HS0]; · iexists _; iexact HS0
    iexists _; isplitr; · ipureintro; exact harg6.read_unread _
    iexact HS1

end Cert.KernelIdeal.Hand

end
-- ==== Proof.KI.RunC.lean ====
/-
  The body at the last reduction step (k = 15, and 15 ≠ 0): the key block's contribution is added to the
  accumulator, then the sigmoid of the accumulator is stored into the output block, which may hold anything
  before. What the accumulator and the output block end with is recorded as the list of stores into each.
-/
import proofs.«127074_j670014898407_2_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : cond0_1 i)
    (x1 : Vec F S512x1024 .f32) (xs0 : Vec F S1024x1024 .f32) (xs1 : Vec F S1024x1024 .bf16) :
    Σ' (L2 : List (View.Piece (Elt F) S1024x1024 .f32)), { LS0 : List (View.Piece (Elt F) S1024x1024 .f32) //
      ∀ (x0 : Vec F S1024x1024 .f32) (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ owns (c : Thread nD τ) arg6 fullShare xs1) -∗ K ⟨⟩))
          ⊢ wp frame (wpE (defs₀ (F := F)) Variants.none c none) E (cc0__attn_kernel i arg2 harg2 arg3 harg3 arg4 harg4 arg5 harg5 arg6 harg6) K } := by
  refine ⟨?_, ?_, fun x0 E K => ?run⟩
  case run =>
    simp only [cc0__attn_kernel_eq_skeleton]; unfold cc0__attn_kernel_skel
    unfold owns
    iintro ⟨H0, ⟨%f1, %hf1, H1⟩, ⟨%d2, %f2, -, H2⟩, ⟨%fs0, %hfs0, HS0⟩, ⟨%fs1, %hfs1, HS1⟩, Hk⟩
    obtain rfl := harg3.eq_unread hf1; obtain rfl := harg5.eq_unread hfs0; obtain rfl := harg6.eq_unread hfs1
    sl_exec (disch := first | exact hc0 | exact hc1)
    sl_step
    iapply Hk
    isplitl [H0]; · iexact H0
    isplitl [H1]
    · iexists _; isplitr; · ipureintro; exact harg3.read_unread _
      iexact H1
    isplitl [H2]; · iexists _; iexact H2
    isplitl [HS0]; · iexists _; iexact HS0
    iexists _; isplitr; · ipureintro; exact harg6.read_unread _
    iexact HS1

end Cert.KernelIdeal.Hand

end
-- ==== Proof.KI.Body.lean ====
/-
  What the accumulator, the normalized query rows and the output block hold after each grid point, and the
  body's obligation to the pipeline at a generic point.

  Point t = 16·i + k. At k = 0 the accumulator and the normalized query rows are rebuilt from the query
  block alone (whatever the scratch held before), so their contents after the point are a function of the
  two input blocks; at k > 0 the accumulator after the point is a function of the key block and of what
  the point before left in both scratch buffers, and the normalized query rows are as the point before left
  them; at k = 15 the output block is a function of the same. The contents are named by recursion on the
  point (`outsAt0`); the invariant between points holds the two scratch buffers at them.
-/
import proofs.«127074_j670014898407_2_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

def sout0_A_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : cond0_0 i) (hc1 : ¬cond0_1 i)
    (x0 : Vec F S1024x1024 .f32) (x1 : Vec F S512x1024 .f32) : Vec F S1024x1024 .f32 :=
  VS0_0.read (Elt F) (VS0_0.writes (Elt F) VS0_0.junk (kernelRun0_A c i arg2 harg2 arg3 harg3 arg4 harg4 arg5 harg5 arg6 harg6 hc0 hc1 x0 x1).1)
theorem scover0_A_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : cond0_0 i) (hc1 : ¬cond0_1 i)
    (x0 : Vec F S1024x1024 .f32) (x1 : Vec F S512x1024 .f32) (y : S1024x1024.Idx) :
    ∃ pc ∈ (kernelRun0_A c i arg2 harg2 arg3 harg3 arg4 harg4 arg5 harg5 arg6 harg6 hc0 hc1 x0 x1).1, y ∈ pc.1.set :=
  View.cover_of_tiledL (kernelRun0_A c i arg2 harg2 arg3 harg3 arg4 harg4 arg5 harg5 arg6 harg6 hc0 hc1 x0 x1).1 S1024x1024.size (by sl_kernel_rfl) y
def sout0_A_1 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : cond0_0 i) (hc1 : ¬cond0_1 i)
    (x0 : Vec F S1024x1024 .f32) (x1 : Vec F S512x1024 .f32) : Vec F S1024x1024 .bf16 :=
  VS0_1.read (Elt F) (VS0_1.writes (Elt F) VS0_1.junk (kernelRun0_A c i arg2 harg2 arg3 harg3 arg4 harg4 arg5 harg5 arg6 harg6 hc0 hc1 x0 x1).2.1)
theorem scover0_A_1 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : cond0_0 i) (hc1 : ¬cond0_1 i)
    (x0 : Vec F S1024x1024 .f32) (x1 : Vec F S512x1024 .f32) (y : S1024x1024.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1024x1024.size (by sl_kernel_rfl) y

def sout0_B_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : ¬cond0_1 i)
    (x1 : Vec F S512x1024 .f32) (xs0 : Vec F S1024x1024 .f32) (xs1 : Vec F S1024x1024 .bf16) : Vec F S1024x1024 .f32 :=
  VS0_0.read (Elt F) (VS0_0.writes (Elt F) VS0_0.junk (kernelRun0_B c i arg2 harg2 arg3 harg3 arg4 harg4 arg5 harg5 arg6 harg6 hc0 hc1 x1 xs0 xs1).1)
theorem scover0_B_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : ¬cond0_1 i)
    (x1 : Vec F S512x1024 .f32) (xs0 : Vec F S1024x1024 .f32) (xs1 : Vec F S1024x1024 .bf16) (y : S1024x1024.Idx) :
    ∃ pc ∈ (kernelRun0_B c i arg2 harg2 arg3 harg3 arg4 harg4 arg5 harg5 arg6 harg6 hc0 hc1 x1 xs0 xs1).1, y ∈ pc.1.set :=
  View.cover_of_tiledL (kernelRun0_B c i arg2 harg2 arg3 harg3 arg4 harg4 arg5 harg5 arg6 harg6 hc0 hc1 x1 xs0 xs1).1 S1024x1024.size (by sl_kernel_rfl) y

def out0_C_2 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : cond0_1 i)
    (x1 : Vec F S512x1024 .f32) (xs0 : Vec F S1024x1024 .f32) (xs1 : Vec F S1024x1024 .bf16) : Vec F S1024x1024 .f32 :=
  VO0_2.read (Elt F) (VO0_2.writes (Elt F) VO0_2.junk (kernelRun0_C c i arg2 harg2 arg3 harg3 arg4 harg4 arg5 harg5 arg6 harg6 hc0 hc1 x1 xs0 xs1).1)
theorem cover0_C_2 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : cond0_1 i)
    (x1 : Vec F S512x1024 .f32) (xs0 : Vec F S1024x1024 .f32) (xs1 : Vec F S1024x1024 .bf16) (y : S1024x1024.Idx) :
    ∃ pc ∈ (kernelRun0_C c i arg2 harg2 arg3 harg3 arg4 harg4 arg5 harg5 arg6 harg6 hc0 hc1 x1 xs0 xs1).1, y ∈ pc.1.set :=
  View.cover_of_tiledL (kernelRun0_C c i arg2 harg2 arg3 harg3 arg4 harg4 arg5 harg5 arg6 harg6 hc0 hc1 x1 xs0 xs1).1 S1024x1024.size (by sl_kernel_rfl) y
def sout0_C_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : cond0_1 i)
    (x1 : Vec F S512x1024 .f32) (xs0 : Vec F S1024x1024 .f32) (xs1 : Vec F S1024x1024 .bf16) : Vec F S1024x1024 .f32 :=
  VS0_0.read (Elt F) (VS0_0.writes (Elt F) VS0_0.junk (kernelRun0_C c i arg2 harg2 arg3 harg3 arg4 harg4 arg5 harg5 arg6 harg6 hc0 hc1 x1 xs0 xs1).2.1)
theorem scover0_C_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : cond0_1 i)
    (x1 : Vec F S512x1024 .f32) (xs0 : Vec F S1024x1024 .f32) (xs1 : Vec F S1024x1024 .bf16) (y : S1024x1024.Idx) :
    ∃ pc ∈ (kernelRun0_C c i arg2 harg2 arg3 harg3 arg4 harg4 arg5 harg5 arg6 harg6 hc0 hc1 x1 xs0 xs1).2.1, y ∈ pc.1.set :=
  View.cover_of_tiledL (kernelRun0_C c i arg2 harg2 arg3 harg3 arg4 harg4 arg5 harg5 arg6 harg6 hc0 hc1 x1 xs0 xs1).2.1 S1024x1024.size (by sl_kernel_rfl) y

/-! ## The cases at a grid point -/

theorem notLast_of_first {t : Fin cfg0.N} (h0 : t.val % 16 = 0) : ¬cond0_1 (grid0.coords t) :=
  fun h => by have := (hcond0_1 t).mp h; omega

/-- After a first step (k = 0): the accumulator and the normalized query rows, from the two input blocks. -/
def accA (c : Dev nD) (t : Fin cfg0.N) (h0 : t.val % 16 = 0) : Vec F S1024x1024 .f32 :=
  sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (notLast_of_first h0) (iblk m c 0 t) (iblk m c 1 t)
def qnA (c : Dev nD) (t : Fin cfg0.N) (h0 : t.val % 16 = 0) : Vec F S1024x1024 .bf16 :=
  sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (notLast_of_first h0) (iblk m c 0 t) (iblk m c 1 t)
/-- After a middle step: the accumulator, from the key block and what the point before left. -/
def accB (c : Dev nD) (t : Fin cfg0.N) (h0 : ¬t.val % 16 = 0) (h1 : ¬t.val % 16 = 15)
    (a : Vec F S1024x1024 .f32) (q : Vec F S1024x1024 .bf16) : Vec F S1024x1024 .f32 :=
  sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 1 t) a q
/-- After a last step (k = 15): the accumulator and the output block. -/
def accC (c : Dev nD) (t : Fin cfg0.N) (h0 : ¬t.val % 16 = 0) (h1 : t.val % 16 = 15)
    (a : Vec F S1024x1024 .f32) (q : Vec F S1024x1024 .bf16) : Vec F S1024x1024 .f32 :=
  sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 1 t) a q
def outC (c : Dev nD) (t : Fin cfg0.N) (h0 : ¬t.val % 16 = 0) (h1 : t.val % 16 = 15)
    (a : Vec F S1024x1024 .f32) (q : Vec F S1024x1024 .bf16) : Vec F S1024x1024 .f32 :=
  out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 1 t) a q

/-- A placeholder for the output block at the points that store nothing into it (nothing consults it there). -/
def noOut : Vec F S1024x1024 .f32 := VO0_2.read (Elt F) VO0_2.junk

/-! ## The accumulation, point by point -/

/-- After the body at position `n`: the output block, the accumulator, the normalized query rows. -/
def outsAt0 (c : Dev nD) : (n : ℕ) → n < cfg0.N → Vec F S1024x1024 .f32 × Vec F S1024x1024 .f32 × Vec F S1024x1024 .bf16
  | 0, hn => (noOut, accA m c ⟨0, hn⟩ (Nat.zero_mod _), qnA m c ⟨0, hn⟩ (Nat.zero_mod _))
  | n + 1, hn =>
    if h0 : (n + 1) % 16 = 0 then
      (noOut, accA m c ⟨n + 1, hn⟩ h0, qnA m c ⟨n + 1, hn⟩ h0)
    else
      if h1 : (n + 1) % 16 = 15 then
        (outC m c ⟨n + 1, hn⟩ h0 h1 (outsAt0 c n (Nat.lt_of_succ_lt hn)).2.1 (outsAt0 c n (Nat.lt_of_succ_lt hn)).2.2,
         accC m c ⟨n + 1, hn⟩ h0 h1 (outsAt0 c n (Nat.lt_of_succ_lt hn)).2.1 (outsAt0 c n (Nat.lt_of_succ_lt hn)).2.2,
         (outsAt0 c n (Nat.lt_of_succ_lt hn)).2.2)
      else
        (noOut,
         accB m c ⟨n + 1, hn⟩ h0 h1 (outsAt0 c n (Nat.lt_of_succ_lt hn)).2.1 (outsAt0 c n (Nat.lt_of_succ_lt hn)).2.2,
         (outsAt0 c n (Nat.lt_of_succ_lt hn)).2.2)

theorem outsAt0_A (c : Dev nD) (t : Fin cfg0.N) (h0 : t.val % 16 = 0) :
    outsAt0 m c t.val t.isLt = (noOut, accA m c t h0, qnA m c t h0) := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 m c t.val t.isLt = (noOut,
      accB m c t h0 h1 (outsAt0 m c (t.val - 1) (Nat.lt_of_le_of_lt (Nat.sub_le _ _) t.isLt)).2.1 (outsAt0 m c (t.val - 1) (Nat.lt_of_le_of_lt (Nat.sub_le _ _) t.isLt)).2.2,
      (outsAt0 m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (
      outC m c t h0 h1 (outsAt0 m c (t.val - 1) (Nat.lt_of_le_of_lt (Nat.sub_le _ _) t.isLt)).2.1 (outsAt0 m c (t.val - 1) (Nat.lt_of_le_of_lt (Nat.sub_le _ _) t.isLt)).2.2,
      accC m c t h0 h1 (outsAt0 m c (t.val - 1) (Nat.lt_of_le_of_lt (Nat.sub_le _ _) t.isLt)).2.1 (outsAt0 m c (t.val - 1) (Nat.lt_of_le_of_lt (Nat.sub_le _ _) t.isLt)).2.2,
      (outsAt0 m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-! ## The invariant between points -/

/-- Before the first point both scratch buffers hold anything; after point `n` they hold what it left. -/
def PhiS (c : Dev nD) : (n : ℕ) → n ≤ cfg0.N → sProp 𝕄
  | 0, _ => PhiA0 c
  | n + 1, hn => iprop(owns (c : Thread nD τ) scM0_0 fullShare ((outsAt0 m c n hn).2.1) ∗ owns (c : Thread nD τ) scM0_1 fullShare ((outsAt0 m c n hn).2.2))

theorem PhiS_zero (c : Dev nD) (n : ℕ) (h : n ≤ cfg0.N) (hz : n = 0) : PhiS m c n h = PhiA0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2)) := by
  cases n with
  | zero => exact absurd rfl hz
  | succ n => rfl

/-! ## The proof data -/

/-- The two input windows read one array, x: each holds half of it (the array is only read); the output window holds its array outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 16 = 0
  · -- the first reduction step
    have hc1 : ¬cond0_1 (grid0.coords t) := notLast_of_first h0
    rw [Dat.leavesExact_idle (dats m 0 c) 2 t (idleAt0_2 t hc1) (noFlush0_2 t hc1)]
    rw [outsAt0_A m c t h0]
    unfold accA qnA sout0_A_0 sout0_A_1; (try dsimp only)
    by_cases hz : t.val = 0
    · rw [PhiS_castSucc m c t, PhiS_zero m c _ _ hz, PhiA0_eq]
      iintro ⟨⟨HS0, HS1⟩, Ho, ⟨%d0, H0⟩, ⟨%d1, H1⟩, ⟨%d2, H2⟩⟩
      iapply ((kernelRun0_A c (grid0.coords t) _ _ _ _ _ _ _ _ _ _ ((hcond0_0 t).mpr h0) hc1 (iblk m c 0 t) (iblk m c 1 t)).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨⟨HS0, HS1⟩, Ho, ⟨%d0, H0⟩, ⟨%d1, H1⟩, ⟨%d2, H2⟩⟩
      iapply ((kernelRun0_A c (grid0.coords t) _ _ _ _ _ _ _ _ _ _ ((hcond0_0 t).mpr h0) hc1 (iblk m c 0 t) (iblk m c 1 t)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _)
      isplitl [Ho]; · iexact Ho
      isplitl [H0]; · iexact H0
      isplitl [H1]; · iexact H1
      iexists _; iexact H2
  · have hz : t.val ≠ 0 := fun h => h0 (by rw [h])
    have hc0 : ¬cond0_0 (grid0.coords t) := fun h => h0 ((hcond0_0 t).mp h)
    by_cases h1 : t.val % 16 = 15
    · -- the last reduction step
      have hc1 : cond0_1 (grid0.coords t) := (hcond0_1 t).mpr h1
      rw [show (dats m 0 c).leavesExact 2 t = owns (c : Thread nD τ) (ms0_2 t) fullShare ((dats m 0 c).after 2 t) from by
        unfold Dat.leavesExact; rw [liveAt0_2 t hc1], after0_2]
      rw [outsAt0_C m c t h0 h1]
      unfold outC accC out0_C_2 sout0_C_0; (try dsimp only)
      rw [PhiS_castSucc m c t, PhiS_pos m c _ _ hz]
      iintro ⟨⟨HS0, HS1⟩, Ho, ⟨%d0, H0⟩, ⟨%d1, H1⟩, ⟨%d2, H2⟩⟩
      iapply ((kernelRun0_C c (grid0.coords t) _ _ _ _ _ _ _ _ _ _ hc0 hc1 (iblk m c 1 t) _ _).2.2 _ Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, HS1⟩
      isplitl [HS0 HS1]
      · isplitl [HS0]
        · unfold owns; iexists _; isplitr
          swap; · iexact HS0
          ipureintro; exact View.read_writes_of_cover _ _ _ _ _ (scover0_C_0 c _ _ _ _ _ _ _ _ _ _ _ _ _ _ _ _)
        · iexact HS1
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _)
    · -- a middle reduction step
      have hc1 : ¬cond0_1 (grid0.coords t) := fun h => h1 ((hcond0_1 t).mp h)
      rw [Dat.leavesExact_idle (dats m 0 c) 2 t (idleAt0_2 t hc1) (noFlush0_2 t hc1)]
      rw [outsAt0_B m c t h0 h1]
      unfold accB sout0_B_0; (try dsimp only)
      rw [PhiS_castSucc m c t, PhiS_pos m c _ _ hz]
      iintro ⟨⟨HS0, HS1⟩, Ho, ⟨%d0, H0⟩, ⟨%d1, H1⟩, ⟨%d2, H2⟩⟩
      iapply ((kernelRun0_B c (grid0.coords t) _ _ _ _ _ _ _ _ _ _ hc0 hc1 (iblk m c 1 t) _ _).2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, HS1⟩
      isplitl [HS0 HS1]
      · isplitl [HS0]
        · unfold owns; iexists _; isplitr
          swap; · iexact HS0
          ipureintro; exact View.read_writes_of_cover _ _ _ _ _ (scover0_B_0 c _ _ _ _ _ _ _ _ _ _ _ _ _ _ _ _)
        · iexact HS1
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : PhiA0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ PhiA0 c := by
  have hne : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ hne, PhiA0_eq]
  iintro ⟨HS0, HS1⟩
  isplitl [HS0]
  · iexists _; iexact HS0
  · iexists _; iexact HS1

end Cert.KernelIdeal.Hand

end
-- ==== Proof.KI.Pieces.lean ====
/-
  What each case of the body leaves, as the body's arithmetic: at the first reduction step the normalized
  query rows are the normalization of the query block and the accumulator is zero plus the key block's
  contribution; at a later step the accumulator is what the step before left plus the key block's
  contribution; at the last step the output block is the sigmoid of that accumulator. (A store through
  the whole block leaves its payload; a load through the whole block reads the contents.)
-/
import proofs.«127074_j670014898407_2_alg».proof.Proof.KI.Body
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := by funext a; fin_cases a <;> rfl

theorem sout0_A_0_eq (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : cond0_0 i) (hc1 : ¬cond0_1 i)
    (x0 : Vec F S1024x1024 .f32) (x1 : Vec F S512x1024 .f32) :
    sout0_A_0 c i arg2 harg2 arg3 harg3 arg4 harg4 arg5 harg5 arg6 harg6 hc0 hc1 x0 x1 = k0_pay3 x1 (k0_pay2 x0) k0_pay1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero hz2]
  simp only [View.readCov_unit_zero (S := S1024x1024) _ hz2, View.readAt_eq_ld, harg2.read_unread, harg3.read_unread, harg5.read_unread, harg6.read_unread, View.ld_unit_zero (S := S1024x1024) hz2, View.ld_unit_zero (S := S512x1024) hz2]

theorem sout0_A_1_eq (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : cond0_0 i) (hc1 : ¬cond0_1 i)
    (x0 : Vec F S1024x1024 .f32) (x1 : Vec F S512x1024 .f32) :
    sout0_A_1 c i arg2 harg2 arg3 harg3 arg4 harg4 arg5 harg5 arg6 harg6 hc0 hc1 x0 x1 = k0_pay2 x0 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_unit_zero hz2]
  simp only [View.readCov_unit_zero (S := S1024x1024) _ hz2, View.readAt_eq_ld, harg2.read_unread, harg3.read_unread, harg5.read_unread, harg6.read_unread, View.ld_unit_zero (S := S1024x1024) hz2, View.ld_unit_zero (S := S512x1024) hz2]

theorem sout0_B_0_eq (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : ¬cond0_1 i)
    (x1 : Vec F S512x1024 .f32) (xs0 : Vec F S1024x1024 .f32) (xs1 : Vec F S1024x1024 .bf16) :
    sout0_B_0 c i arg2 harg2 arg3 harg3 arg4 harg4 arg5 harg5 arg6 harg6 hc0 hc1 x1 xs0 xs1 = k0_pay3 x1 xs1 xs0 := by
  unfold sout0_B_0
  rw [View.read_writes_eq_canon _ _ _ (scover0_B_0 c i arg2 harg2 arg3 harg3 arg4 harg4 arg5 harg5 arg6 harg6 hc0 hc1 x1 xs0 xs1)]
  unfold kernelRun0_B
  dsimp only
  rw [View.canon_unit_zero hz2]
  simp only [View.readCov_unit_zero (S := S1024x1024) _ hz2, View.readAt_eq_ld, harg2.read_unread, harg3.read_unread, harg5.read_unread, harg6.read_unread, View.ld_unit_zero (S := S1024x1024) hz2, View.ld_unit_zero (S := S512x1024) hz2]

theorem sout0_C_0_eq (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : cond0_1 i)
    (x1 : Vec F S512x1024 .f32) (xs0 : Vec F S1024x1024 .f32) (xs1 : Vec F S1024x1024 .bf16) :
    sout0_C_0 c i arg2 harg2 arg3 harg3 arg4 harg4 arg5 harg5 arg6 harg6 hc0 hc1 x1 xs0 xs1 = k0_pay3 x1 xs1 xs0 := by
  unfold sout0_C_0
  rw [View.read_writes_eq_canon _ _ _ (scover0_C_0 c i arg2 harg2 arg3 harg3 arg4 harg4 arg5 harg5 arg6 harg6 hc0 hc1 x1 xs0 xs1)]
  unfold kernelRun0_C
  dsimp only
  sl_unfold_words
  rw [View.canon_unit_zero hz2]
  simp only [View.readCov_unit_zero (S := S1024x1024) _ hz2, View.readAt_eq_ld, harg2.read_unread, harg3.read_unread, harg5.read_unread, harg6.read_unread, View.ld_unit_zero (S := S1024x1024) hz2, View.ld_unit_zero (S := S512x1024) hz2]

theorem out0_C_2_eq (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (hc0 : ¬cond0_0 i) (hc1 : cond0_1 i)
    (x1 : Vec F S512x1024 .f32) (xs0 : Vec F S1024x1024 .f32) (xs1 : Vec F S1024x1024 .bf16) :
    out0_C_2 c i arg2 harg2 arg3 harg3 arg4 harg4 arg5 harg5 arg6 harg6 hc0 hc1 x1 xs0 xs1 = k0_pay4 (k0_pay3 x1 xs1 xs0) := by
  unfold out0_C_2
  rw [View.read_writes_eq_canon _ _ _ (cover0_C_2 c i arg2 harg2 arg3 harg3 arg4 harg4 arg5 harg5 arg6 harg6 hc0 hc1 x1 xs0 xs1)]
  unfold kernelRun0_C
  dsimp only
  sl_unfold_words
  rw [View.canon_unit_zero hz2]
  simp only [View.readCov_unit_zero (S := S1024x1024) _ hz2, View.readAt_eq_ld, harg2.read_unread, harg3.read_unread, harg5.read_unread, harg6.read_unread, View.ld_unit_zero (S := S1024x1024) hz2, View.ld_unit_zero (S := S512x1024) hz2]

/-! ## The same at a grid point -/

theorem accA_eq (c : Dev nD) (t : Fin cfg0.N) (h0 : t.val % 16 = 0) :
    accA m c t h0 = k0_pay3 (iblk m c 1 t) (k0_pay2 (iblk m c 0 t)) k0_pay1 := by
  unfold accA; exact sout0_A_0_eq c _ _ _ _ _ _ _ _ _ _ _ _ _ _ _
theorem qnA_eq (c : Dev nD) (t : Fin cfg0.N) (h0 : t.val % 16 = 0) :
    qnA m c t h0 = k0_pay2 (iblk m c 0 t) := by
  unfold qnA; exact sout0_A_1_eq c _ _ _ _ _ _ _ _ _ _ _ _ _ _ _
theorem accB_eq (c : Dev nD) (t : Fin cfg0.N) (h0 : ¬t.val % 16 = 0) (h1 : ¬t.val % 16 = 15)
    (a : Vec F S1024x1024 .f32) (q : Vec F S1024x1024 .bf16) :
    accB m c t h0 h1 a q = k0_pay3 (iblk m c 1 t) q a := by
  unfold accB; exact sout0_B_0_eq c _ _ _ _ _ _ _ _ _ _ _ _ _ _ _ _
theorem accC_eq (c : Dev nD) (t : Fin cfg0.N) (h0 : ¬t.val % 16 = 0) (h1 : t.val % 16 = 15)
    (a : Vec F S1024x1024 .f32) (q : Vec F S1024x1024 .bf16) :
    accC m c t h0 h1 a q = k0_pay3 (iblk m c 1 t) q a := by
  unfold accC; exact sout0_C_0_eq c _ _ _ _ _ _ _ _ _ _ _ _ _ _ _ _
theorem outC_eq (c : Dev nD) (t : Fin cfg0.N) (h0 : ¬t.val % 16 = 0) (h1 : t.val % 16 = 15)
    (a : Vec F S1024x1024 .f32) (q : Vec F S1024x1024 .bf16) :
    outC m c t h0 h1 a q = k0_pay4 (k0_pay3 (iblk m c 1 t) q a) := by
  unfold outC; exact out0_C_2_eq c _ _ _ _ _ _ _ _ _ _ _ _ _ _ _ _

end Cert.KernelIdeal.Hand

end
-- ==== Proof.KI.Steps.lean ====
/-
  One step of the accumulation as the body's arithmetic, at a grid point t: at a first step (k = 0) the
  accumulator and the normalized query rows are functions of the two input blocks; at a later step the
  accumulator is the step's payload over what the point before left, and the normalized query rows are
  unchanged; at a last step (k = 15) the output block is the sigmoid of that point's accumulator.
-/
import proofs.«127074_j670014898407_2_alg».proof.Proof.KI.Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem acc_first (c : Dev nD) (t : Fin cfg0.N) (h0 : t.val % 16 = 0) :
    (outsAt0 m c t.val t.isLt).2.1 = k0_pay3 (iblk m c 1 t) (k0_pay2 (iblk m c 0 t)) (k0_pay1 (F := F)) := by
  have h := outsAt0_A m c t h0
  have e : (outsAt0 m c t.val t.isLt).2.1 = accA m c t h0 := by rw [h]
  exact e.trans (accA_eq m c t h0)

theorem qn_first (c : Dev nD) (t : Fin cfg0.N) (h0 : t.val % 16 = 0) :
    (outsAt0 m c t.val t.isLt).2.2 = k0_pay2 (iblk m c 0 t) := by
  have h := outsAt0_A m c t h0
  have e : (outsAt0 m c t.val t.isLt).2.2 = qnA m c t h0 := by rw [h]
  exact e.trans (qnA_eq m c t h0)

theorem acc_later (c : Dev nD) (t : Fin cfg0.N) (h0 : ¬t.val % 16 = 0) :
    (outsAt0 m c t.val t.isLt).2.1 = k0_pay3 (iblk m c 1 t) (outsAt0 m c (t.val - 1) (Nat.lt_of_le_of_lt (Nat.sub_le _ _) t.isLt)).2.2 (outsAt0 m c (t.val - 1) (Nat.lt_of_le_of_lt (Nat.sub_le _ _) t.isLt)).2.1 := by
  by_cases h1 : t.val % 16 = 15
  · have h := outsAt0_C m c t h0 h1
    have e : (outsAt0 m c t.val t.isLt).2.1 = accC m c t h0 h1 (outsAt0 m c (t.val - 1) (Nat.lt_of_le_of_lt (Nat.sub_le _ _) t.isLt)).2.1 (outsAt0 m c (t.val - 1) (Nat.lt_of_le_of_lt (Nat.sub_le _ _) t.isLt)).2.2 := by rw [h]
    exact e.trans (accC_eq m c t h0 h1 _ _)
  · have h := outsAt0_B m c t h0 h1
    have e : (outsAt0 m c t.val t.isLt).2.1 = accB m c t h0 h1 (outsAt0 m c (t.val - 1) (Nat.lt_of_le_of_lt (Nat.sub_le _ _) t.isLt)).2.1 (outsAt0 m c (t.val - 1) (Nat.lt_of_le_of_lt (Nat.sub_le _ _) t.isLt)).2.2 := by rw [h]
    exact e.trans (accB_eq m c t h0 h1 _ _)

theorem qn_later (c : Dev nD) (t : Fin cfg0.N) (h0 : ¬t.val % 16 = 0) :
    (outsAt0 m c t.val t.isLt).2.2 = (outsAt0 m c (t.val - 1) (Nat.lt_of_le_of_lt (Nat.sub_le _ _) t.isLt)).2.2 := by
  by_cases h1 : t.val % 16 = 15
  · have h := outsAt0_C m c t h0 h1
    rw [h]
  · have h := outsAt0_B m c t h0 h1
    rw [h]

theorem out_last (c : Dev nD) (t : Fin cfg0.N) (h0 : ¬t.val % 16 = 0) (h1 : t.val % 16 = 15) :
    (outsAt0 m c t.val t.isLt).1 = k0_pay4 ((outsAt0 m c t.val t.isLt).2.1) := by
  have h := outsAt0_C m c t h0 h1
  have e1 : (outsAt0 m c t.val t.isLt).1 = outC m c t h0 h1 (outsAt0 m c (t.val - 1) (Nat.lt_of_le_of_lt (Nat.sub_le _ _) t.isLt)).2.1 (outsAt0 m c (t.val - 1) (Nat.lt_of_le_of_lt (Nat.sub_le _ _) t.isLt)).2.2 := by rw [h]
  have e2 : (outsAt0 m c t.val t.isLt).2.1 = accC m c t h0 h1 (outsAt0 m c (t.val - 1) (Nat.lt_of_le_of_lt (Nat.sub_le _ _) t.isLt)).2.1 (outsAt0 m c (t.val - 1) (Nat.lt_of_le_of_lt (Nat.sub_le _ _) t.isLt)).2.2 := by rw [h]
  rw [e1, e2, outC_eq, accC_eq]

end Cert.KernelIdeal.Hand

end
-- ==== Proof.KI.Blocks.lean ====
/-
  Which rows of x each window's block holds at a grid point t = 16·i + k: the query window rows 1024·i + p,
  the key window rows 512·k + jj, the output window rows 1024·i + p of the result; every block spans all
  1024 columns. (Block coordinate = block index × block size + coordinate inside the block.)
-/
import proofs.«127074_j670014898407_2_alg».proof.Proof.KI.Body
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The block indices, over the grid: row-block i = t / 16 for the query and output windows, k = t % 16 for the key window. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

theorem tlt (t : Fin cfg0.N) : t.val < 128 := lt_of_lt_of_eq t.isLt (show cfg0.N = 128 from N_0)

/-- Row p of the query (and output) block at point t, as a row of the array. -/
def qrow (t : Fin cfg0.N) (p : Fin 1024) : Fin 8192 := ⟨(t.val / 16) * 1024 + p.val, by have := tlt t; have := p.isLt; omega⟩
/-- Row jj of the key block at point t, as a row of the array. -/
def krow (t : Fin cfg0.N) (jj : Fin 512) : Fin 8192 := ⟨(t.val % 16) * 512 + jj.val, by have := jj.isLt; omega⟩

theorem iblk0_apply (c : Dev nD) (t : Fin cfg0.N) (p e : Fin 1024) :
    iblk m c 0 t (ix2 p e) = V m c main_arg0 (ix2 (qrow t p) e) := by
  unfold iblk
  show V m c main_arg0 (((cfg0.win 0).blk t).view.emb (ix2 p e)) = V m c main_arg0 (ix2 (qrow t p) e)
  obtain ⟨e0, e1, e2, e3, e4, e5⟩ := idx_facts t
  congr 1
  funext a; apply Fin.ext
  match a with
  | ⟨0, _⟩ => show win0_0.index t (0 : Fin 2) * 1024 + 1 * p.val = (t.val / 16) * 1024 + p.val; omega
  | ⟨1, _⟩ => show win0_0.index t (1 : Fin 2) * 1024 + 1 * e.val = e.val; omega

theorem iblk1_apply (c : Dev nD) (t : Fin cfg0.N) (jj : Fin 512) (e : Fin 1024) :
    iblk m c 1 t (ix2 jj e) = V m c main_arg0 (ix2 (krow t jj) e) := by
  unfold iblk
  show V m c main_arg0 (((cfg0.win 1).blk t).view.emb (ix2 jj e)) = V m c main_arg0 (ix2 (krow t jj) e)
  obtain ⟨e0, e1, e2, e3, e4, e5⟩ := idx_facts t
  congr 1
  funext a; apply Fin.ext
  match a with
  | ⟨0, _⟩ => show win0_1.index t (0 : Fin 2) * 512 + 1 * jj.val = (t.val % 16) * 512 + jj.val; omega
  | ⟨1, _⟩ => show win0_1.index t (1 : Fin 2) * 1024 + 1 * e.val = e.val; omega

end Cert.KernelIdeal.Hand

end
-- ==== Proof.KI.Run.lean ====
/-
  The launch. The two input windows read one array (x): the launch holds it whole, and hands each window one
  half of it (the array is only read, so halves suffice); the output array is held outright. With the body's
  obligation at every point, the pipeline's rule gives the run: every weakly fair execution ends, no fault,
  each window's array at what the write-backs leave (for an input: its entry contents), and the argument W,
  which no window touches, unchanged.
-/
import proofs.«127074_j670014898407_2_alg».proof.Proof.KI.Body
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays: x and the result. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)) := by
  unfold Pipeline.arrBufs
  exact bigSep_eq_bigSepL_of_eq [main_arg0, main_v0] (by decide) (by decide) _

/-- x held whole is x held by halves, one per input window; the result array goes to the output window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq]
  unfold Dat.arrays
  rw [bigSep_W0]
  have e0 : ((cfg0.win 0).arr.view.loc (c : Thread nD τ) ↦[(cfg0.win 0).arr.view.set]{(dats m 0 c).share 0} (dats m 0 c).arrAt 0 0 : sProp 𝕄)
      = (((c : Thread nD τ).loc main_arg0) ↦{fullShare.left} V m c main_arg0) := by
    rw [(arr_whole0 0).set_eq_univ]; rfl
  have e1 : ((cfg0.win 1).arr.view.loc (c : Thread nD τ) ↦[(cfg0.win 1).arr.view.set]{(dats m 0 c).share 1} (dats m 0 c).arrAt 1 0 : sProp 𝕄)
      = (((c : Thread nD τ).loc main_arg0) ↦{fullShare.right} V m c main_arg0) := by
    rw [(arr_whole0 1).set_eq_univ]; rfl
  have e2 : ((cfg0.win 2).arr.view.loc (c : Thread nD τ) ↦[(cfg0.win 2).arr.view.set]{(dats m 0 c).share 2} (dats m 0 c).arrAt 2 0 : sProp 𝕄)
      = (((c : Thread nD τ).loc main_v0) ↦{fullShare} V m c main_v0) := by
    rw [(arr_whole0 2).set_eq_univ]; rfl
  rw [e0, e1, e2]
  iintro ⟨HA, HO⟩
  ihave HA2 := (pointsTo_share (PosShare.mem_left_op_right fullShare)).1 $$ HA
  icases HA2 with ⟨HAl, HAr⟩
  isplitl [HAl]; · iexact HAl
  isplitl [HAr]; · iexact HAr
  iexact HO

/-- The buffers no window touches (the argument W) bypass the region. -/
theorem hX' (c : Dev nD) :
    (Pipeline.unscopedRest (Ix := Unit) (Name := ℕ) (U := UR sig nD τ) (Lvl := ℕ) spec0 c (V m c) : sProp 𝕄)
      ⊢ iprop(emp ∗ Pipeline.unscopedRest (Ix := Unit) (Name := ℕ) (U := UR sig nD τ) (Lvl := ℕ) spec0 c (V m c)) := by
  iintro H
  isplitr
  · iempintro
  · iexact H

/-- The region's scratch buffers, at anything, are the invariant before the first point, -/
theorem hin' (c : Dev nD) :
    iprop(emp ∗ (Pipeline.scopedRest (Ix := Unit) (Name := ℕ) (U := UR sig nD τ) (Lvl := ℕ) (Val := Elt F) spec0 c : sProp 𝕄)) ⊢ (dats m 0 c).Φ 0 :=
  (show iprop(emp ∗ (Pipeline.scopedRest (Ix := Unit) (Name := ℕ) (U := UR sig nD τ) (Lvl := ℕ) (Val := Elt F) spec0 c : sProp 𝕄)) ⊢ PhiA0 c from by
    unfold PhiA0; iintro ⟨-, H⟩; iexact H).trans (hin m c)

/-- and the invariant after the last point gives them back. -/
theorem hout' (c : Dev nD) :
    (dats m 0 c).Φ (Fin.last cfg0.N) ⊢ iprop(emp ∗ (Pipeline.scopedRest (Ix := Unit) (Name := ℕ) (U := UR sig nD τ) (Lvl := ℕ) (Val := Elt F) spec0 c : sProp 𝕄)) :=
  (hout m c).trans (show PhiA0 c ⊢ iprop(emp ∗ (Pipeline.scopedRest (Ix := Unit) (Name := ℕ) (U := UR sig nD τ) (Lvl := ℕ) (Val := Elt F) spec0 c : sProp 𝕄)) from by
    unfold PhiA0
    iintro H
    isplitr
    · iempintro
    · iexact H)

/-- What the run ends with: each window's array at what the write-backs leave, every other unscoped buffer as at launch. -/
def RunPost (r : PUnit × MemSt nD τ sig (Elt F)) : Prop :=
  ∀ c : Dev nD, (∀ w, r.2.mem ((spec0 w).arr.view.loc (c : Thread nD τ)) = (dats m 0 c).arrAt w cfg0.N)
    ∧ ∀ b ∈ Pipeline.restRefs sig spec0, r.2.mem ((c : Thread nD τ).loc b) = V m c b

set_option backward.isDefEq.respectTransparency.types false in
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m)
    (hmain := Pipeline.hmain_region cfgs 0 defs₀ Variants.none m main (fun _ => rfl))
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := hX' m) (hin := hin' m) (hout := hout' m)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- info: 'Cert.KernelIdeal.Hand.run_main' depends on axioms: [propext, Classical.choice, Quot.sound] -/
#guard_msgs in #print axioms run_main

/-- The frame: the program runs to the end, faults nowhere, and both arguments end as they began — x by the
    input windows' arrays never being written, W by no window touching it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans (A_eq m c 0)),
     (h c).2 main_arg1 (Pipeline.mem_restRefs_of main_arg1 rfl (by decide))⟩) (run_main m ρ)

end Cert.KernelIdeal.Hand

end
-- ==== Proof.Spec.lean ====
/-
  The specification: the logistic function of a row-normalised self-similarity product, as ONE function of the
  argument array, over literal shapes and the extended reals.

  For x : [8192, 1024]:
    rowNorm x r = max (sqrt (Σ_e x[r,e] · x[r,e])) ε              (ε the f32 word 0x322BCC77)
    xn x r e    = x[r,e] / rowNorm x r
    sim x r j   = Σ_e xn x r e · xn x j e
    z x r d     = Σ_{j < 8192} sim x r j · x[j,d]
    G x [r,d]   = logistic (z x r d) = 1 / (1 + exp (−z x r d)).

  The sum over j is the sum of its 16 consecutive blocks of 512 rows (`z_eq_sum_zBlk`: a re-indexing of a finite sum
  in a commutative monoid, no distributivity and no finiteness), and a running sum that starts at 0 and adds one block
  per step ends at that sum of blocks (`acc_eq_sum`, `acc16_eq_sum`).
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

/-- The index set of the argument and of the result: [8192, 1024]. -/
abbrev XIdx : Type := (⟨2, ![8192, 1024]⟩ : Shape).Idx

/-- The lower bound of a row's norm: the f32 word 0x322BCC77, never evaluated. -/
abbrev eps : EReal := Ideal.ofBits .f32 0x322BCC77#32

/-- A row's norm, bounded below by ε: max (sqrt (Σ_e x[r,e]²)) ε. -/
def rowNorm (x : XIdx → EReal) (r : Fin 8192) : EReal :=
  max (Ideal.sqrt (∑ e : Fin 1024, x (ix2 r e) * x (ix2 r e))) eps

/-- The row-normalised array: x[r,e] / rowNorm x r. -/
def xn (x : XIdx → EReal) (r : Fin 8192) (e : Fin 1024) : EReal :=
  Ideal.div (x (ix2 r e)) (rowNorm x r)

/-- The similarity of rows r and j: Σ_e xn[r,e] · xn[j,e]. -/
def sim (x : XIdx → EReal) (r j : Fin 8192) : EReal :=
  ∑ e : Fin 1024, xn x r e * xn x j e

/-- The similarity-weighted sum of all rows, before the logistic function: Σ_{j<8192} sim[r,j] · x[j,d]. -/
def z (x : XIdx → EReal) (r : Fin 8192) (d : Fin 1024) : EReal :=
  ∑ j : Fin 8192, sim x r j * x (ix2 j d)

/-- The result, index by index: logistic (z x r d) at [r,d]. -/
def G (x : XIdx → EReal) : XIdx → EReal :=
  fun i => Ideal.logistic (z x (i 0) (i 1))

theorem G_ix2 (x : XIdx → EReal) (r : Fin 8192) (d : Fin 1024) :
    G x (ix2 r d) = Ideal.logistic (z x r d) := rfl

/-- The f32 word 0x3F800000 is the extended real 1. -/
theorem ofBits_one_f32 : Ideal.ofBits .f32 0x3F800000#32 = 1 :=
  IdealRules.sign_bit.ideal_onePat .f32

/-! ## The sum over the rows, block by block -/

/-- Row jj of block kb (16 blocks of 512 rows): kb · 512 + jj. -/
def blkRow (kb : Fin 16) (jj : Fin 512) : Fin 8192 :=
  ⟨kb.val * 512 + jj.val, by have := kb.isLt; have := jj.isLt; omega⟩

@[simp] theorem blkRow_val (kb : Fin 16) (jj : Fin 512) : (blkRow kb jj).val = kb.val * 512 + jj.val := rfl

/-- A sum over 8192 rows is the sum over 16 blocks of the sums over each block's 512 rows. -/
theorem sum_rows_eq_sum_blocks {M : Type*} [AddCommMonoid M] (f : Fin 8192 → M) :
    ∑ j : Fin 8192, f j = ∑ kb : Fin 16, ∑ jj : Fin 512, f (blkRow kb jj) := by
  rw [← Equiv.sum_comp (finProdFinEquiv (m := 16) (n := 512)) f, Fintype.sum_prod_type]
  refine Finset.sum_congr rfl fun kb _ => Finset.sum_congr rfl fun jj _ => congrArg f (Fin.ext ?_)
  show jj.val + 512 * kb.val = kb.val * 512 + jj.val
  omega

/-- One block's part of z: Σ_{jj<512} sim[r, kb·512+jj] · x[kb·512+jj, d]. -/
def zBlk (x : XIdx → EReal) (kb : Fin 16) (r : Fin 8192) (d : Fin 1024) : EReal :=
  ∑ jj : Fin 512, sim x r (blkRow kb jj) * x (ix2 (blkRow kb jj) d)

/-- z is the sum of its 16 blocks. -/
theorem z_eq_sum_zBlk (x : XIdx → EReal) (r : Fin 8192) (d : Fin 1024) :
    z x r d = ∑ kb : Fin 16, zBlk x kb r d :=
  sum_rows_eq_sum_blocks fun j => sim x r j * x (ix2 j d)

/-! ## A running sum -/

/-- A sequence that starts at 0 and adds B k at step k is, after n steps, the sum of B over the first n steps. -/
theorem acc_eq_sum {M : Type*} [AddCommMonoid M] (n : ℕ) (a B : ℕ → M) (h0 : a 0 = 0)
    (hs : ∀ k, k < n → a (k + 1) = a k + B k) : a n = ∑ k : Fin n, B k.val := by
  rw [Fin.sum_univ_eq_sum_range (fun k => B k) n]
  induction n with
  | zero => rw [Finset.range_zero, Finset.sum_empty]; exact h0
  | succ n ih =>
    rw [Finset.sum_range_succ, hs n (Nat.lt_succ_self n), ih fun k hk => hs k (Nat.lt_succ_of_lt hk)]

/-- The same over 16 steps, the summands indexed by the step as an element of Fin 16. -/
theorem acc16_eq_sum {M : Type*} [AddCommMonoid M] (a : ℕ → M) (B : Fin 16 → M) (h0 : a 0 = 0)
    (hs : ∀ k : Fin 16, a (k.val + 1) = a k.val + B k) : a 16 = ∑ k : Fin 16, B k := by
  have h := acc_eq_sum 16 a (fun k => if hk : k < 16 then B ⟨k, hk⟩ else 0) h0 (fun k hk => by
    rw [dif_pos hk]; exact hs ⟨k, hk⟩)
  rw [h]
  exact Finset.sum_congr rfl fun k _ => by rw [dif_pos k.isLt]

end Cert.Spec

end
-- ==== Proof.PayIdeal.lean ====
/-
  The kernel body's four pure values, read at an index on the extended reals (format changes are the identity there).

  With ε the f32 word 0x322BCC77 and, for a block x of rows, norm_x(p) = max (sqrt (Σ_e x[p,e]²)) ε:
    the first value is the zero array (the accumulator's initial value);
    the second is the query block normalised, x0[p,e] / norm_x0(p);
    the third is one step of the accumulation over a key block x1 of 512 rows:
      acc[p,d] + Σ_{jj<512} (Σ_e qn[p,e] · x1[jj,e] / norm_x1(jj)) · x1[jj,d]
      — a product that contracts axis 1 of both operands, then a plain product, each into a zero accumulator;
    the fourth is the logistic function, entry by entry.
  Each is read through its layout operations: a sum over axis 1 is Σ_k src[p,k]; kept as a column [a,1] it is read at
  [p,0]; spread over the row it is read at [p,e]; a matrix product at an index is the sum over the contracted coordinate.
-/
import proofs.«127074_j670014898407_2_alg».proof.Proof.Gen.KernelIdeal.Skeleton
import proofs.«127074_j670014898407_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.PayIdeal

open Cert.KernelIdeal Cert.KernelIdeal.Gen Idealize.ShloMosaic Idealize.ShloMosaic.ValueIdx

/-! ## Layout operations of a row sum kept as a column, read at an index -/

/-- The source index over [p] with coordinate k on the summed axis 1 is [p,k]. -/
theorem lift_row {a b : ℕ} (h : Shape.Reduces ⟨2, ![a, b]⟩ [1] ⟨1, ![a]⟩) (p : Fin a) (k : Fin b) :
    h.lift (ix1 p) k = ix2 p k :=
  funext fun c => Fin.ext (by match c with | ⟨0, _⟩ => rfl | ⟨1, _⟩ => rfl)

/-- A sum over axis 1 of an [a,b] array, read at row p: Σ_k src[p,k]. -/
theorem rowSum_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_row h p k)

/-- A row vector [a] kept as a column [a,1], read at [p,q]: the entry p. -/
theorem column_apply {α : Type} {a : ℕ} (v : (⟨1, ![a]⟩ : Shape).Idx → α) (h : (⟨1, ![a]⟩ : Shape).ShapeCasts ⟨2, ![a, 1]⟩)
    (p : Fin a) (q : Fin 1) : shapeCast ⟨2, ![a, 1]⟩ v h (ix2 p q) = v (ix1 p) := by
  refine shapeCast_apply v h (ix2 p q) (ix1 p) ?_
  rw [Shape.rowMajor_val_one, Shape.rowMajor_val_two]
  show p.val = p.val * 1 + q.val
  have := q.isLt
  omega

/-- A column [a,1] spread over the rows of [a,b], read at [p,e]: the column's entry [p,0]. -/
theorem spread_apply {α : Type} {a b : ℕ} (v : (⟨2, ![a, 1]⟩ : Shape).Idx → α) (h : (⟨2, ![a, 1]⟩ : Shape).Broadcasts ⟨2, ![a, b]⟩)
    (p : Fin a) (e : Fin b) : broadcastTo ⟨2, ![a, b]⟩ v h (ix2 p e) = v (ix2 p (0 : Fin 1)) := by
  refine broadcastTo_apply v h (ix2 p e) (ix2 p (0 : Fin 1)) fun c => ?_
  match c with
  | ⟨0, _⟩ =>
    show p.val = if a = 1 then 0 else p.val
    split
    · next h1 => have := p.isLt; omega
    · rfl
  | ⟨1, _⟩ =>
    show 0 = if (1 : ℕ) = 1 then 0 else e.val
    rw [if_pos rfl]

/-! ## A block's rows divided by their clamped norms -/

/-- x[p,e] / max (sqrt (Σ_e' x[p,e']²)) ε, as the body computes it for an [a,1024] block: the squares' sum over
    axis 1 from the zero word, kept as a column, its square root, the maximum with ε, spread over the row. -/
theorem normalised_apply {a : ℕ} (x : FVec Ideal ⟨2, ![a, 1024]⟩ .f32)
    (hr : Shape.Reduces ⟨2, ![a, 1024]⟩ [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, 1024]⟩)
    (p : Fin a) (e : Fin 1024) :
    divf x (broadcastTo ⟨2, ![a, 1024]⟩
        (maximumf (sqrt (shapeCast ⟨2, ![a, 1]⟩ (multiReduction .add [1] ⟨1, ![a]⟩ (mulf x x) 0x00000000#32 hr hφ hacc) hc))
          (broadcast ⟨2, ![a, 1]⟩ (Scalar.ofBits .f32 0x322BCC77#32))) hb) (ix2 p e)
      = Ideal.div (x (ix2 p e)) (max (Ideal.sqrt (∑ e' : Fin 1024, x (ix2 p e') * x (ix2 p e'))) Cert.Spec.eps) := by
  rw [divf_apply, spread_apply, maximumf_apply]
  show Ideal.div (x (ix2 p e)) (max (Ideal.sqrt (shapeCast ⟨2, ![a, 1]⟩ _ hc (ix2 p (0 : Fin 1)))) (Ideal.ofBits .f32 0x322BCC77#32)) = _
  rw [column_apply, rowSum_apply]
  rfl

/-! ## The four payloads at an index -/

/-- The accumulator's initial value: the zero word. -/
theorem pay1_apply (p d : Fin 1024) : k0_pay1 (F := Ideal) (ix2 p d) = 0 := by
  unfold k0_pay1
  rw [shapeCast_self]
  exact Ideal.ofBits_zero_f32

/-- The query block, normalised (the format change is the identity on the extended reals). -/
theorem pay2_apply (x0 : FVec Ideal S1024x1024 .f32) (p e : Fin 1024) :
    k0_pay2 (F := Ideal) x0 (ix2 p e)
      = Ideal.div (x0 (ix2 p e)) (max (Ideal.sqrt (∑ e' : Fin 1024, x0 (ix2 p e') * x0 (ix2 p e'))) Cert.Spec.eps) := by
  unfold k0_pay2
  rw [shapeCast_self, truncf_apply]
  exact normalised_apply x0 _ _ _ _ _ p e

/-! ## The two matrix products at an index -/

/-- The first product's operand indices: the left operand's axis 0 is the result's axis 0, -/
theorem lhs_nt_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl
/-- its axis 1 the contracted one; -/
theorem lhs_nt_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
/-- the right operand's axis 0 is the result's axis 1, -/
theorem rhs_nt_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl
/-- its axis 1 the contracted one. -/
theorem rhs_nt_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- The first product contracts axis 1 of both operands: out[p,jj] = Σ_k lhs[p,k] · rhs[jj,k]. -/
theorem matmul_nt_apply (lhs : FVec Ideal S1024x1024 .bf16) (rhs : FVec Ideal S512x1024 .bf16) (p : Fin 1024) (jj : Fin 512) :
    matmul dot_S1024x1024_S512x1024_S1024x512_1_1_0_0_n_n none lhs rhs (constant S1024x512 .f32 0x00000000#32) (ix2 p jj)
      = ∑ k : Fin 1024, lhs (ix2 p k) * rhs (ix2 jj k) := by
  simp only [matmul]
  rw [Ideal.matmul_constant_zero_apply, ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 p jj) ((contrEquiv1 dot_S1024x1024_S512x1024_S1024x512_1_1_0_0_n_n 1024 rfl rfl).symm k) = ix2 p k :=
    funext fun a => Fin.ext (by
      match a with
      | ⟨0, _⟩ => exact lhs_nt_0 _ _
      | ⟨1, _⟩ => exact (lhs_nt_1 _ _).trans hk)
  have er : dot_S1024x1024_S512x1024_S1024x512_1_1_0_0_n_n.rhsIdx (ix2 p jj) ((contrEquiv1 dot_S1024x1024_S512x1024_S1024x512_1_1_0_0_n_n 1024 rfl rfl).symm k) = ix2 jj k :=
    funext fun a => Fin.ext (by
      match a with
      | ⟨0, _⟩ => exact rhs_nt_0 _ _
      | ⟨1, _⟩ => exact (rhs_nt_1 _ _).trans hk)
  rw [el, er]

/-- The second product's operand indices: the left operand's axis 0 is the result's axis 0, -/
theorem lhs_nn_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
/-- its axis 1 the contracted one; -/
theorem lhs_nn_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
/-- the right operand's axis 0 is the contracted one, -/
theorem rhs_nn_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
/-- its axis 1 the result's axis 1. -/
theorem rhs_nn_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The second product is the plain one: out[p,d] = Σ_jj lhs[p,jj] · rhs[jj,d]. -/
theorem matmul_nn_apply (lhs : FVec Ideal S1024x512 .bf16) (rhs : FVec Ideal S512x1024 .bf16) (p d : Fin 1024) :
    matmul dot_S1024x512_S512x1024_S1024x1024_1_0_0_1_n_n none lhs rhs (constant S1024x1024 .f32 0x00000000#32) (ix2 p d)
      = ∑ jj : Fin 512, lhs (ix2 p jj) * rhs (ix2 jj d) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p d) ((contrEquiv1 dot_S1024x512_S512x1024_S1024x1024_1_0_0_1_n_n 512 rfl rfl).symm k) = ix2 p k :=
    funext fun a => Fin.ext (by
      match a with
      | ⟨0, _⟩ => exact lhs_nn_0 _ _
      | ⟨1, _⟩ => exact (lhs_nn_1 _ _).trans hk)
  have er : dot_S1024x512_S512x1024_S1024x1024_1_0_0_1_n_n.rhsIdx (ix2 p d) ((contrEquiv1 dot_S1024x512_S512x1024_S1024x1024_1_0_0_1_n_n 512 rfl rfl).symm k) = ix2 k d :=
    funext fun a => Fin.ext (by
      match a with
      | ⟨0, _⟩ => exact (rhs_nn_0 _ _).trans hk
      | ⟨1, _⟩ => exact rhs_nn_1 _ _)
  rw [el, er]

/-- One step of the accumulation: the accumulator plus, over the key block's 512 rows jj, the query row's product
    with the normalised key row, Σ_e qn[p,e] · (x1[jj,e] / norm of row jj), times x1[jj,d]. -/
theorem pay3_apply (x1 : FVec Ideal S512x1024 .f32) (qn : FVec Ideal S1024x1024 .bf16) (acc : FVec Ideal S1024x1024 .f32)
    (p d : Fin 1024) :
    k0_pay3 (F := Ideal) x1 qn acc (ix2 p d)
      = acc (ix2 p d) + ∑ jj : Fin 512,
          (∑ e : Fin 1024, qn (ix2 p e)
            * Ideal.div (x1 (ix2 jj e)) (max (Ideal.sqrt (∑ e' : Fin 1024, x1 (ix2 jj e') * x1 (ix2 jj e'))) Cert.Spec.eps))
          * x1 (ix2 jj d) := by
  unfold k0_pay3
  rw [shapeCast_self, addf_apply, matmul_nn_apply]
  refine congrArg (acc (ix2 p d) + ·) (Finset.sum_congr rfl fun jj _ => ?_)
  rw [truncf_apply, truncf_apply, matmul_nt_apply]
  refine congrArg (· * x1 (ix2 jj d)) (Finset.sum_congr rfl fun e _ => ?_)
  rw [truncf_apply]
  exact congrArg (qn (ix2 p e) * ·) (normalised_apply x1 _ _ _ _ _ jj e)

/-- The logistic function, entry by entry. -/
theorem pay4_apply (v : FVec Ideal S1024x1024 .f32) (i : S1024x1024.Idx) :
    k0_pay4 (F := Ideal) v i = Ideal.logistic (v i) := rfl

/-! ## The payloads of blocks cut out of one array, against the specification -/

/-- A query block whose row p is row `row p` of x: its normalisation is the specification's normalised array there. -/
theorem pay2_xn (x : Cert.Spec.XIdx → EReal) (x0 : Vec Ideal S1024x1024 .f32) (row : Fin 1024 → Fin 8192)
    (h0 : ∀ (p : Fin 1024) (e : Fin 1024), x0 (ix2 p e) = x (ix2 (row p) e)) (p e : Fin 1024) :
    k0_pay2 (F := Ideal) x0 (ix2 p e) = Cert.Spec.xn x (row p) e := by
  rw [pay2_apply]
  simp only [h0]
  rfl

/-- A key block whose row jj is row kb·512+jj of x, and a query row that is the normalised row r of x: one step adds
    block kb's part of z[r,d] to the accumulator. -/
theorem pay3_zBlk (x : Cert.Spec.XIdx → EReal) (x1 : Vec Ideal S512x1024 .f32) (kb : Fin 16)
    (h1 : ∀ (jj : Fin 512) (e : Fin 1024), x1 (ix2 jj e) = x (ix2 (Cert.Spec.blkRow kb jj) e))
    (qn : Vec Ideal S1024x1024 .bf16) (acc : Vec Ideal S1024x1024 .f32) (r : Fin 8192) (p : Fin 1024)
    (hq : ∀ e : Fin 1024, qn (ix2 p e) = Cert.Spec.xn x r e) (d : Fin 1024) :
    k0_pay3 (F := Ideal) x1 qn acc (ix2 p d) = acc (ix2 p d) + Cert.Spec.zBlk x kb r d := by
  rw [pay3_apply]
  refine congrArg (acc (ix2 p d) + ·) (Finset.sum_congr rfl fun jj _ => ?_)
  simp only [h1, hq]
  rfl

/-- The logistic function of the finished sum z[r,d] is the specification's result at [r,d]. -/
theorem pay4_G (x : Cert.Spec.XIdx → EReal) (v : Vec Ideal S1024x1024 .f32) (r : Fin 8192) (p d : Fin 1024)
    (hv : v (ix2 p d) = Cert.Spec.z x r d) :
    k0_pay4 (F := Ideal) v (ix2 p d) = Cert.Spec.G x (ix2 r d) := by
  rw [pay4_apply, hv]
  rfl

end Cert.KernelIdeal.PayIdeal

end
-- ==== Proof.KI.Value.lean ====
/-
  The kernel's value at the exact instance. With x the argument array as the region finds it, r = 1024·i + p a
  row of the result and t = 16·i + k a grid point: after point t the normalized query rows hold
  x[r,·] / max(‖x[r,·]‖, ε), and the accumulator holds the sum over the key blocks 0 … k of
  Σ_jj sim(r, 512·kb + jj) · x[512·kb + jj, d] — by induction on the point, each step adding one block (the
  first step starting from zero). At k = 15 the sum runs over all sixteen blocks, which is the whole sum
  over the 8192 rows, so the output block is the sigmoid of z; the sixteenth points' blocks tile the result
  array, which therefore ends holding G x.
-/
import proofs.«127074_j670014898407_2_alg».proof.Proof.KI.Steps
import proofs.«127074_j670014898407_2_alg».proof.Proof.KI.Blocks
import proofs.«127074_j670014898407_2_alg».proof.Proof.KI.Run
import proofs.«127074_j670014898407_2_alg».proof.Proof.Spec
import proofs.«127074_j670014898407_2_alg».proof.Proof.PayIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.Spec Cert.KernelIdeal.PayIdeal

/-- The argument array x as the region finds it. -/
abbrev xOf (c : Dev nD) : Spec.XIdx → EReal := V m c main_arg0

/-- The reduction step of a grid point. -/
def kOf (t : Fin cfg0.N) : Fin 16 := ⟨t.val % 16, Nat.mod_lt _ (by decide)⟩

/-- Block kb's contribution to z at (r, d), for kb a natural number (zero past the sixteen blocks). -/
def B (x : Spec.XIdx → EReal) (r : Fin 8192) (d : Fin 1024) (kb : ℕ) : EReal :=
  if h : kb < 16 then Spec.zBlk x ⟨kb, h⟩ r d else 0

theorem B_val (x : Spec.XIdx → EReal) (r : Fin 8192) (d : Fin 1024) (k : Fin 16) : B x r d k.val = Spec.zBlk x k r d :=
  dif_pos k.isLt

theorem sum_B (x : Spec.XIdx → EReal) (r : Fin 8192) (d : Fin 1024) :
    ∑ kb ∈ Finset.range 16, B x r d kb = Spec.z x r d := by
  rw [Spec.z_eq_sum_zBlk, Finset.sum_range]
  exact Finset.sum_congr rfl fun k _ => B_val x r d k

theorem krow_eq (t : Fin cfg0.N) (jj : Fin 512) : krow t jj = Spec.blkRow (kOf t) jj := Fin.ext rfl

/-- The key block at a point is block k of x. -/
theorem kblk (c : Dev nD) (t : Fin cfg0.N) (jj : Fin 512) (e : Fin 1024) :
    iblk m c 1 t (ix2 jj e) = xOf m c (ix2 (Spec.blkRow (kOf t) jj) e) :=
  (iblk1_apply m c t jj e).trans (by rw [krow_eq])

/-- Within a row-block the rows do not move from one reduction step to the next. -/
theorem qrow_pred (t : Fin cfg0.N) (h0 : ¬t.val % 16 = 0) (p : Fin 1024) :
    qrow t p = qrow ⟨t.val - 1, Nat.lt_of_le_of_lt (Nat.sub_le _ _) t.isLt⟩ p := by
  apply Fin.ext
  show t.val / 16 * 1024 + p.val = (t.val - 1) / 16 * 1024 + p.val
  have : t.val / 16 = (t.val - 1) / 16 := by omega
  rw [this]

/-! ## The invariant -/

/-- After point t: the normalized query rows, and the accumulator as the sum of the key blocks met so far. -/
def Inv (c : Dev nD) (t : Fin cfg0.N) : Prop :=
  (∀ (p e : Fin 1024), (outsAt0 m c t.val t.isLt).2.2 (ix2 p e) = Spec.xn (xOf m c) (qrow t p) e)
  ∧ (∀ (p d : Fin 1024), (outsAt0 m c t.val t.isLt).2.1 (ix2 p d) = ∑ kb ∈ Finset.range (t.val % 16 + 1), B (xOf m c) (qrow t p) d kb)

theorem inv_first (c : Dev nD) (t : Fin cfg0.N) (h0 : t.val % 16 = 0) : Inv m c t := by
  have ea := acc_first m c t h0
  have eq := qn_first m c t h0
  have hq : ∀ (p e : Fin 1024), k0_pay2 (F := Ideal) (iblk m c 0 t) (ix2 p e) = Spec.xn (xOf m c) (qrow t p) e :=
    fun p e => pay2_xn (xOf m c) (iblk m c 0 t) (qrow t) (fun p e => iblk0_apply m c t p e) p e
  refine ⟨fun p e => by rw [eq]; exact hq p e, fun p d => ?_⟩
  rw [ea, pay3_zBlk (xOf m c) (iblk m c 1 t) (kOf t) (kblk m c t) _ _ (qrow t p) p (fun e => hq p e) d, pay1_apply, zero_add]
  have h1 : t.val % 16 + 1 = 1 := by omega
  rw [h1, Finset.sum_range_one, ← B_val]
  show B _ _ _ (t.val % 16) = B _ _ _ 0
  rw [h0]

theorem inv_later (c : Dev nD) (t : Fin cfg0.N) (h0 : ¬t.val % 16 = 0)
    (ih : Inv m c ⟨t.val - 1, Nat.lt_of_le_of_lt (Nat.sub_le _ _) t.isLt⟩) : Inv m c t := by
  obtain ⟨ihq, iha⟩ := ih
  have ea := acc_later m c t h0
  have eq := qn_later m c t h0
  have hq : ∀ (p e : Fin 1024), (outsAt0 m c (t.val - 1) (Nat.lt_of_le_of_lt (Nat.sub_le _ _) t.isLt)).2.2 (ix2 p e) = Spec.xn (xOf m c) (qrow t p) e :=
    fun p e => by rw [qrow_pred t h0]; exact ihq p e
  refine ⟨fun p e => by rw [eq]; exact hq p e, fun p d => ?_⟩
  rw [ea, pay3_zBlk (xOf m c) (iblk m c 1 t) (kOf t) (kblk m c t) _ _ (qrow t p) p (fun e => hq p e) d]
  have iha' := iha p d
  rw [← qrow_pred t h0] at iha'
  have hk : (t.val - 1) % 16 + 1 = t.val % 16 := by omega
  rw [hk] at iha'
  show (outsAt0 m c (t.val - 1) _).2.1 (ix2 p d) + _ = _
  rw [iha', Finset.sum_range_succ, ← B_val]
  rfl

theorem inv (c : Dev nD) : ∀ (n : ℕ) (hn : n < cfg0.N), Inv m c ⟨n, hn⟩ := by
  intro n
  induction n with
  | zero => intro hn; exact inv_first m c ⟨0, hn⟩ (Nat.zero_mod _)
  | succ n ih =>
    intro hn
    by_cases h0 : (n + 1) % 16 = 0
    · exact inv_first m c ⟨n + 1, hn⟩ h0
    · exact inv_later m c ⟨n + 1, hn⟩ h0 (ih (Nat.lt_of_succ_lt hn))

/-! ## What a flushing point writes back -/

/-- Row p, column d of the output block at point t is row 1024·i + p, column d of the result. -/
theorem oblk_emb (t : Fin cfg0.N) (p d : Fin 1024) :
    ((cfg0.win 2).blk t).view.emb (ix2 p d) = ix2 (qrow t p) d := by
  obtain ⟨e0, e1, e2, e3, e4, e5⟩ := idx_facts t
  funext a; apply Fin.ext
  match a with
  | ⟨0, _⟩ => show win0_2.index t (0 : Fin 2) * 1024 + 1 * p.val = (t.val / 16) * 1024 + p.val; omega
  | ⟨1, _⟩ => show win0_2.index t (1 : Fin 2) * 1024 + 1 * d.val = d.val; omega

theorem flushed_eq (c : Dev nD) (t : Fin cfg0.N) (h1 : t.val % 16 = 15) :
    (dats m 0 c).flushed 2 t = ((cfg0.win 2).blk t).view.read (Elt Ideal) (Spec.G (xOf m c)) := by
  have h0 : ¬t.val % 16 = 0 := by omega
  show (cfg0.win 2).cut (grid0.coords t) ((dats m 0 c).after 2 t) = _
  rw [after0_2]
  funext j
  obtain ⟨p, d, rfl⟩ : ∃ (p : Fin 1024) (d : Fin 1024), j = ix2 p d := ⟨j 0, j 1, eq_ix2 j⟩
  show (outsAt0 m c t.val t.isLt).1 (ix2 p d) = Spec.G (xOf m c) (((cfg0.win 2).blk t).view.emb (ix2 p d))
  rw [oblk_emb, out_last m c t h0 h1, pay4_apply, (inv m c t.val t.isLt).2 p d, Spec.G_ix2]
  have h16 : t.val % 16 + 1 = 16 := by omega
  rw [h16, sum_B]

/-! ## The blocks written back tile the result -/

theorem mem_blk2 (t : Fin cfg0.N) (i : S8192x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

theorem cover (i : S8192x1024.Idx) : ∃ t : Fin cfg0.N, (cfg0.win 2).flush t = true ∧ i ∈ ((cfg0.win 2).blk t).view.set := by
  have hi0 : (i 0).val < 8192 := (i 0).isLt
  have hi1 : (i 1).val < 1024 := (i 1).isLt
  have hN : cfg0.N = 128 := N_0
  obtain ⟨t, htv⟩ : ∃ t : Fin cfg0.N, t.val = 16 * ((i 0).val / 1024) + 15 := ⟨⟨16 * ((i 0).val / 1024) + 15, by omega⟩, rfl⟩
  refine ⟨t, (flush0_2 t).mpr (by omega), ?_⟩
  rw [mem_blk2]
  obtain ⟨e0, e1, e2, e3, e4, e5⟩ := idx_facts t
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run. -/
theorem final (c : Dev nD) : (dats m 0 c).arrAt 2 cfg0.N = Spec.G (xOf m c) :=
  (dats m 0 c).arrAt_eq_of_cover 2 (Spec.G (xOf m c)) (fun t hf => flushed_eq m c t ((flush0_2 t).mp hf)) cover

/-! ## The run, with the result named -/

theorem run_value (ρ : Dev nD → PrngReg) : θ_run defs (onTc (τ := τ) (main (F := Ideal))) ⟨m, fun _ => 0, ρ⟩ (fun r => ∀ c : Dev nD,
      r.2.mem ((c.tc : Thread nD τ).loc main_v0) = Spec.G (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 2).trans (final m c),
     ((h c).1 0).trans (((dats m 0 c).arrAt_in 0 rfl _).trans (A_eq m c 0)),
     (h c).2 main_arg1 (Pipeline.mem_restRefs_of main_arg1 rfl (by decide))⟩) (run_main m ρ)

end Cert.KernelIdeal.Hand

end
-- ==== Proof.RefValue.lean ====
/-
  The reference's result is the specification's function G of the argument array.

  Read one operation at a time at an index [r,d] (the generated reading lemmas), the reference computes
    the squares' row sum 0 + Σ_e x[r,e]·x[r,e], its square root, the maximum with ε, kept as a column and spread over the
    row: the row's norm (`norm_eq`);
    x[r,e] divided by it: the normalised array (`xn_eq`);
    the contraction of the normalised array with its transpose: Σ_e xn[r,e]·xn[j,e], the similarity (`sim_eq`);
    the contraction of the similarity with x: Σ_j sim[r,j]·x[j,d] (`z_eq`);
    and 1 / (1 + exp (−·)) of it, the word 0x3F800000 being 1: the logistic function (`ref_eq_G`).
  Each step identifies the composed index maps of the layout operations with the coordinates [r,·], [·,d].
-/
import proofs.«127074_j670014898407_2_alg».proof.Proof.Gen.ReferenceIdeal.Read
import proofs.«127074_j670014898407_2_alg».proof.Proof.Spec

noncomputable section

open scoped BigOperators

namespace Cert.ReferenceIdeal.RefValue

open Cert.ReferenceIdeal Cert.ReferenceIdeal.Gen Cert.ReferenceIdeal.Read Idealize.ShloMosaic
  Idealize.ShloMosaic.ValueIdx Cert.Spec

/-- The clamped norm of row r, read at the column entry [r,0]. -/
theorem norm_eq (x : FVec Ideal S8192x1024 .f32) (r : Fin 8192) :
    val_main_v5 (F := Ideal) x (ix2 r (0 : Fin 1)) = rowNorm x r := by
  have e : ∀ k : Fin 1024, idx_main_v1 (idx_main_v2 (ix2 r (0 : Fin 1))) k = ix2 r k := fun k =>
    funext fun a => Fin.ext (by match a with | ⟨0, _⟩ => rfl | ⟨1, _⟩ => rfl)
  rw [val_main_v5_apply, val_main_v3_apply, val_main_v2_apply, val_main_v1_apply, val_main_cst_apply,
    val_main_v4_apply, val_main_cst_0_apply]
  simp only [val_main_v0_apply, e, Ideal.ofBits_def, Ideal.mulf_def, Ideal.maximumf_def, Ideal.hostUnary_sqrt_def,
    Ideal.ofBits_zero_f32, zero_add]
  rfl

/-- The normalised array at [r,e]. -/
theorem xn_eq (x : FVec Ideal S8192x1024 .f32) (r : Fin 8192) (e : Fin 1024) :
    val_main_v7 (F := Ideal) x (ix2 r e) = xn x r e := by
  have h6 : idx_main_v6 (ix2 r e) = ix2 r (0 : Fin 1) :=
    funext fun a => Fin.ext (by match a with | ⟨0, _⟩ => rfl | ⟨1, _⟩ => rfl)
  rw [val_main_v7_apply, val_main_v6_apply, h6, norm_eq, Ideal.hostDivf_def]
  rfl

/-- The similarity at [r,j]: the contraction of the normalised array with its transpose. -/
theorem sim_eq (x : FVec Ideal S8192x1024 .f32) (r j : Fin 8192) :
    val_main_v9 (F := Ideal) x (ix2 r j) = sim x r j := by
  rw [val_main_v9_apply]
  refine Finset.sum_congr rfl fun k _ => ?_
  have hl : lidx_main_v9 (ix2 r j) k = ix2 r k :=
    funext fun a => Fin.ext (by match a with | ⟨0, _⟩ => rfl | ⟨1, _⟩ => rfl)
  have hr : idx_main_v8 (ridx_main_v9 (ix2 r j) k) = ix2 j k :=
    funext fun a => Fin.ext (by match a with | ⟨0, _⟩ => rfl | ⟨1, _⟩ => rfl)
  rw [val_main_v8_apply, hl, hr, xn_eq, xn_eq]

/-- The similarity-weighted sum of the rows at [r,d]. -/
theorem z_eq (x : FVec Ideal S8192x1024 .f32) (r : Fin 8192) (d : Fin 1024) :
    val_main_v10 (F := Ideal) x (ix2 r d) = z x r d := by
  rw [val_main_v10_apply]
  refine Finset.sum_congr rfl fun k _ => ?_
  have hl : lidx_main_v10 (ix2 r d) k = ix2 r k :=
    funext fun a => Fin.ext (by match a with | ⟨0, _⟩ => rfl | ⟨1, _⟩ => rfl)
  have hr : ridx_main_v10 (ix2 r d) k = ix2 k d :=
    funext fun a => Fin.ext (by match a with | ⟨0, _⟩ => rfl | ⟨1, _⟩ => rfl)
  rw [hl, hr, sim_eq]

/-- The reference's last stage is G of the argument array: 1 / (1 + exp (−z)) is the logistic function of z. -/
theorem ref_eq_G (x : FVec Ideal S8192x1024 .f32) : val_main_v16 (F := Ideal) x = G x := by
  funext i
  obtain ⟨r, d, rfl⟩ : ∃ (r : Fin 8192) (d : Fin 1024), i = ix2 r d := ⟨i 0, i 1, eq_ix2 i⟩
  rw [val_main_v16_apply, val_main_v15_apply, val_main_cst_2_apply, val_main_v14_apply, val_main_v13_apply,
    val_main_cst_1_apply, val_main_v12_apply, val_main_v11_apply, z_eq]
  simp only [Ideal.ofBits_def, Ideal.hostDivf_def, Ideal.addf_def, Ideal.hostUnary_exp_def, Ideal.hostNegf_def,
    Ideal.negf_def, ofBits_one_f32]
  rfl

end Cert.ReferenceIdeal.RefValue

end
-- ==== Proof.lean ====
/-
  The claim: an attention-style kernel against its reference, over the extended reals.

  Both programs compute, for x : f32[8192, 1024] (the second argument W is unused by both),
      out[r, d] = sigmoid( Σ_j sim[r, j] · x[j, d] ),   sim[r, j] = Σ_e xn[r, e] · xn[j, e],
      xn[r, e] = x[r, e] / max( sqrt(Σ_e' x[r, e']²), ε ).
  The reference does it with two whole matrix products and spells the sigmoid as 1 / (1 + exp(−z)); the kernel
  walks a grid of 8 row-blocks × 16 key-blocks, normalizes the query rows once per row-block, adds one key
  block's contribution to an accumulator per point, and applies the sigmoid at the sixteenth. At the exact
  instance a change of float format is the identity and the sigmoid is by definition 1 / (1 + exp(−z)), so
  the two results differ only in how the sum over the 8192 rows j is grouped (sixteen blocks of 512, added
  one at a time from zero): commutativity and associativity of + on the extended reals. No finiteness of
  the inputs is needed, and the precondition is never opened.

  The frames: the kernel's two input windows both read x, so the launch splits x between them by halves
  (it is only read); the body's obligation is proved at a generic grid point in its three cases (first
  step, middle step, last step), with the accumulator and the normalized query rows carried in the
  invariant between points. The same text proves the frame of the word-level kernel and of its
  idealization. The reference is a host program; its frame is its run with the result dropped.
  No rewrite was applied by the idealization, so the preservation conjunct is trivial.
-/
import proofs.«127074_j670014898407_2_alg».proof.Defs
import proofs.«127074_j670014898407_2_alg».proof.Proof.Gen.Kernel
import proofs.«127074_j670014898407_2_alg».proof.Proof.Gen.Kernel.Skeleton
import proofs.«127074_j670014898407_2_alg».proof.Proof.Gen.Kernel.Launch
import proofs.«127074_j670014898407_2_alg».proof.Proof.Gen.Kernel.Points
import proofs.«127074_j670014898407_2_alg».proof.Proof.Gen.KernelIdeal
import proofs.«127074_j670014898407_2_alg».proof.Proof.Gen.KernelIdeal.Skeleton
import proofs.«127074_j670014898407_2_alg».proof.Proof.Gen.KernelIdeal.Launch
import proofs.«127074_j670014898407_2_alg».proof.Proof.Gen.KernelIdeal.Points
import proofs.«127074_j670014898407_2_alg».proof.Proof.Gen.ReferenceIdeal
import proofs.«127074_j670014898407_2_alg».proof.Proof.Gen.Pre_finite_inputs
import proofs.«127074_j670014898407_2_alg».proof.Proof.Gen.ReferenceIdeal.Run
import proofs.«127074_j670014898407_2_alg».proof.Proof.Gen.ReferenceIdeal.Read
import proofs.«127074_j670014898407_2_alg».proof.Proof.K.Run
import proofs.«127074_j670014898407_2_alg».proof.Proof.KI.Value
import proofs.«127074_j670014898407_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves both arguments as they were. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on x, both programs end with the one function G of x in their result arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)),
    Cert.KernelIdeal.Hand.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.ReferenceIdeal.RefValue.ref_eq_G, (hagree c).1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
